-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_inv_98" .f32 0xBC272F05#32 ((-1 / 98 : ℝ) : EReal)
  ∧ IdealRules.named_const.Statement Cert.KernelIdeal.κ "neg_inv_98" .f32 0xBC272F05#32 ((-1 / 98 : ℝ) : EReal)
  ∧ IdealRules.named_const.Statement Cert.KernelIdeal.κ "neg_inv_49" .f32 0xBCA72F05#32 ((-1 / 49 : ℝ) : EReal)
  ∧ IdealRules.named_const.Statement Cert.KernelIdeal.κ "neg_inv_162" .f32 0xBBCA4588#32 ((-1 / 162 : ℝ) : EReal)
  ∧ IdealRules.named_const.Statement Cert.KernelIdeal.κ "neg_inv_162" .f32 0xBBCA4588#32 ((-1 / 162 : ℝ) : EReal)
  ∧ IdealRules.named_const.Statement Cert.KernelIdeal.κ "neg_inv_81" .f32 0xBC4A4588#32 ((-1 / 81 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S8192x64 : Shape := ⟨2, ![8192, 64]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_arg4 : FVec F S8192x64 .f32) (main_arg5 : FVec F S8192x64 .f32) (main_v13 : IVec S_ 1) (main_v16 : IVec S8192x64 1) : IVec S_ 1 :=
  let main_c_5 : IVec S_ 1 := constantI S_ 1 1#1
  let main_v17 : IVec S_ 1 := (fun x v => Host.reduce IntOp.andi x v reducesTo_S8192x64_S_d0_1 h_S_) main_v16 main_c_5
  let main_v18 : IVec S_ 1 := andi main_v13 main_v17
  let main_v19 : FVec F S8192x64 .f32 := Host.absf main_arg4
  let main_cst_6 : FVec F S_ .f32 := constant S_ .f32 0x7F800000#32
  let main_v20 : FVec F S8192x64 .f32 := broadcastInDim S8192x64 ![] bcast_S_S8192x64 main_cst_6
  let main_v21 : IVec S8192x64 1 := cmpf .olt main_v19 main_v20
  let main_c_7 : IVec S_ 1 := constantI S_ 1 1#1
  let main_v22 : IVec S_ 1 := (fun x v => Host.reduce IntOp.andi x v reducesTo_S8192x64_S_d0_1 h_S_) main_v21 main_c_7
  let main_v23 : IVec S_ 1 := andi main_v18 main_v22
  let main_v24 : FVec F S8192x64 .f32 := Host.absf main_arg5
  let main_cst_8 : FVec F S_ .f32 := constant S_ .f32 0x7F800000#32
  let main_v25 : FVec F S8192x64 .f32 := broadcastInDim S8192x64 ![] bcast_S_S8192x64 main_cst_8
  let main_v26 : IVec S8192x64 1 := cmpf .olt main_v24 main_v25
  let main_c_9 : IVec S_ 1 := constantI S_ 1 1#1
  let main_v27 : IVec S_ 1 := (fun x v => Host.reduce IntOp.andi x v reducesTo_S8192x64_S_d0_1 h_S_) main_v26 main_c_9
  let main_v28 : IVec S_ 1 := andi main_v23 main_v27
  main_v28

def fn {F : FTy → Type} [FloatOps F] (main_arg0 : FVec F S8192x32 .f32) (main_arg1 : FVec F S8192x64 .f32) (main_arg2 : FVec F S8192x64 .f32) (main_arg3 : FVec F S8192x64 .f32) (main_arg4 : FVec F S8192x64 .f32) (main_arg5 : FVec F S8192x64 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S8192x64 .f32 := Host.absf main_arg3
  let main_cst_4 : FVec F S_ .f32 := constant S_ .f32 0x7F800000#32
  let main_v15 : FVec F S8192x64 .f32 := broadcastInDim S8192x64 ![] bcast_S_S8192x64 main_cst_4
  let main_v16 : IVec S8192x64 1 := cmpf .olt main_v14 main_v15
  fn_part1 (F := F) main_arg4 main_arg5 main_v13 main_v16
-- ==== Kernel.lean ====
abbrev S8192x32 : Shape := ⟨2, ![8192, 32]⟩
abbrev S8192x64 : Shape := ⟨2, ![8192, 64]⟩
abbrev S8192x96 : Shape := ⟨2, ![8192, 96]⟩
abbrev S_ : Shape := ⟨0, ![]⟩
abbrev S8192x160 : Shape := ⟨2, ![8192, 160]⟩
abbrev S1024x96 : Shape := ⟨2, ![1024, 96]⟩
abbrev S1024x160 : Shape := ⟨2, ![1024, 160]⟩
abbrev S1024x64 : Shape := ⟨2, ![1024, 64]⟩
abbrev S1024 : Shape := ⟨1, ![1024]⟩
abbrev S1024x1 : Shape := ⟨2, ![1024, 1]⟩
abbrev S1x1024 : Shape := ⟨2, ![1, 1024]⟩
abbrev S96x1024 : Shape := ⟨2, ![96, 1024]⟩
abbrev S1024x1024 : Shape := ⟨2, ![1024, 1024]⟩
abbrev S160x1024 : Shape := ⟨2, ![160, 1024]⟩

abbrev nBuf : Space → Nat
  | .hbm => 14
  | .vmem => 15
  | .smem => 0
  | _ => 0

abbrev bufTy : (tb : Table) → Fin (tcTables nBuf tb) → BufTy
  | .hbm, ⟨0, _⟩ => ⟨S8192x32, .f32⟩
  | .hbm, ⟨1, _⟩ => ⟨S8192x64, .f32⟩
  | .hbm, ⟨2, _⟩ => ⟨S8192x64, .f32⟩
  | .hbm, ⟨3, _⟩ => ⟨S8192x64, .f32⟩
  | .hbm, ⟨4, _⟩ => ⟨S8192x64, .f32⟩
  | .hbm, ⟨5, _⟩ => ⟨S8192x64, .f32⟩
  | .hbm, ⟨6, _⟩ => ⟨S8192x64, .f32⟩
  | .hbm, ⟨7, _⟩ => ⟨S8192x96, .f32⟩
  | .hbm, ⟨8, _⟩ => ⟨S8192x64, .f32⟩
  | .hbm, ⟨9, _⟩ => ⟨S_, .f32⟩
  | .hbm, ⟨10, _⟩ => ⟨S8192x64, .f32⟩
  | .hbm, ⟨11, _⟩ => ⟨S8192x64, .f32⟩
  | .hbm, ⟨12, _⟩ => ⟨S8192x160, .f32⟩
  | .hbm, ⟨13, _⟩ => ⟨S8192x64, .f32⟩
  | .local _ .vmem, ⟨0, _⟩ => ⟨S1024x96, .f32⟩
  | .local _ .vmem, ⟨1, _⟩ => ⟨S1024x96, .f32⟩
  | .local _ .vmem, ⟨2, _⟩ => ⟨S1024x96, .f32⟩
  | .local _ .vmem, ⟨3, _⟩ => ⟨S1024x96, .f32⟩
  | .local _ .vmem, ⟨4, _⟩ => ⟨S1024x160, .f32⟩
  | .local _ .vmem, ⟨5, _⟩ => ⟨S1024x160, .f32⟩
  | .local _ .vmem, ⟨6, _⟩ => ⟨S1024x160, .f32⟩
  | .local _ .vmem, ⟨7, _⟩ => ⟨S1024x160, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v79 : BitVec 1 := Scalar.cmpi .eq arg1 c7_i32
  let v80 : BitVec 32 := Scalar.extui v79
  let c0_i32_37 : BitVec 32 := 0#32
  let v81 : BitVec 1 := Scalar.cmpi .ne v80 c0_i32_37
  v81

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x160 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  concatenates_S8192x32_S8192x64_S8192x96_d1 : Shape.Concatenates [S8192x32, S8192x64] S8192x96 1
  bcast_S_S8192x64 : S_.BroadcastsInDim S8192x64 (![] : Fin 0 → Fin S8192x64.rank)
  concatenates_S8192x32_S8192x64_S8192x64_S8192x160_d1 : Shape.Concatenates [S8192x32, S8192x64, S8192x64] S8192x160 1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x96_S1024x96_0_0 : ∀ a, (![0, 0] : Fin 2 → Nat) a + S1024x96.size a ≤ S1024x96.size a
  h_S1024x96 : 0 < S1024x96.numel
  shapeCasts_S1024x96_S1024x96 : S1024x96.ShapeCasts S1024x96
  reduces_S1024x96_S1024 : S1024x96.Reduces [1] S1024
  shapeCasts_S1024_S1024x1 : S1024.ShapeCasts S1024x1
  shapeCasts_S1024_S1x1024 : S1024.ShapeCasts S1x1024
  bitsLt_bf16_f32 : FTy.bits .bf16 < FTy.bits .f32
  transposes_S1024x96_p1_0_S96x1024 : S1024x96.Transposes [1, 0] S96x1024
  broadcasts_S1024x1_S1024x1024 : S1024x1.Broadcasts S1024x1024
  broadcasts_S1x1024_S1024x1024 : S1x1024.Broadcasts S1024x1024
  inb_S1024x160_S1024x160_0_0 : ∀ a, (![0, 0] : Fin 2 → Nat) a + S1024x160.size a ≤ S1024x160.size a
  h_S1024x160 : 0 < S1024x160.numel
  shapeCasts_S1024x160_S1024x160 : S1024x160.ShapeCasts S1024x160
  reduces_S1024x160_S1024 : S1024x160.Reduces [1] S1024
  transposes_S1024x160_p1_0_S160x1024 : S1024x160.Transposes [1, 0] S160x1024
  slices_S1024x96_o0_32_S1024x64 : S1024x96.Slices ![0, 32] S1024x64
  dot_S1024x96_S96x1024_S1024x1024_1_0_0_1_n_n_wf : DotDims.WF S1024x96 S96x1024 S1024x1024 [1] [0] [0] [1] [] []
  dot_S1024x1024_S1024x64_S1024x64_1_0_0_1_n_n_wf : DotDims.WF S1024x1024 S1024x64 S1024x64 [1] [0] [0] [1] [] []
  dot_S1024x160_S160x1024_S1024x1024_1_0_0_1_n_n_wf : DotDims.WF S1024x160 S160x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x96.size a ≤ S8192x96.size a
  hwx0_0 : ∀ i : grid0.Coords, EltTy.bits .f32 = 32 ∨ (Rect.block (s := S8192x96) S1024x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x96.size a ≤ S8192x96.size a
  hwx0_1 : ∀ i : grid0.Coords, EltTy.bits .f32 = 32 ∨ (Rect.block (s := S8192x96) S1024x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x160.size a ≤ S8192x160.size a
  hwx0_2 : ∀ i : grid0.Coords, EltTy.bits .f32 = 32 ∨ (Rect.block (s := S8192x160) S1024x160.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x160.size a ≤ S8192x160.size a
  hwx0_3 : ∀ i : grid0.Coords, EltTy.bits .f32 = 32 ∨ (Rect.block (s := S8192x160) S1024x160.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S8192x64.size a
  hwx0_5 : ∀ i : grid0.Coords, EltTy.bits .f32 = 32 ∨ (Rect.block (s := S8192x64) S1024x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S8192x64.size a
  hwx0_6 : ∀ i : grid0.Coords, EltTy.bits .f32 = 32 ∨ (Rect.block (s := S8192x64) S1024x64.size (cc0_transform_6 i) (hinb0_6 i)).WholeWords (EltTy.packing .f32)

variable [Facts₀]

def dot_S1024x96_S96x1024_S1024x1024_1_0_0_1_n_n : DotDims S1024x96 S96x1024 S1024x1024 where
  lhsContracting := [1]
  rhsContracting := [0]
  lhsNonContracting := [0]
  rhsNonContracting := [1]
  lhsBatch := []
  rhsBatch := []
  wf := dot_S1024x96_S96x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x160_S160x1024_S1024x1024_1_0_0_1_n_n : DotDims S1024x160 S160x1024 S1024x1024 where
  lhsContracting := [1]
  rhsContracting := [0]
  lhsNonContracting := [0]
  rhsNonContracting := [1]
  lhsBatch := []
  rhsBatch := []
  wf := dot_S1024x160_S160x1024_S1024x1024_1_0_0_1_n_n_wf

abbrev win0_0 : Pipeline.Window sig grid0 :=
  Pipeline.Window.ofSpec (Memref.whole main_v1) S1024x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x160.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x160.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x32 : Shape := ⟨2, ![8192, 32]⟩
abbrev S8192x64 : Shape := ⟨2, ![8192, 64]⟩
abbrev S8192x96 : Shape := ⟨2, ![8192, 96]⟩
abbrev S_ : Shape := ⟨0, ![]⟩
abbrev S8192x160 : Shape := ⟨2, ![8192, 160]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S96x8192 : Shape := ⟨2, ![96, 8192]⟩
abbrev S160x8192 : Shape := ⟨2, ![160, 8192]⟩

abbrev nBuf : Space → Nat
  | .hbm => 74
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192x64, .f32⟩
  | .hbm, ⟨2, _⟩ => ⟨S8192x64, .f32⟩
  | .hbm, ⟨3, _⟩ => ⟨S8192x64, .f32⟩
  | .hbm, ⟨4, _⟩ => ⟨S8192x64, .f32⟩
  | .hbm, ⟨5, _⟩ => ⟨S8192x64, .f32⟩
  | .hbm, ⟨6, _⟩ => ⟨S8192x64, .f32⟩
  | .hbm, ⟨7, _⟩ => ⟨S8192x96, .f32⟩
  | .hbm, ⟨8, _⟩ => ⟨S8192x64, .f32⟩
  | .hbm, ⟨9, _⟩ => ⟨S_, .f32⟩
  | .hbm, ⟨10, _⟩ => ⟨S8192x64, .f32⟩
  | .hbm, ⟨11, _⟩ => ⟨S8192x64, .f32⟩
  | .hbm, ⟨12, _⟩ => ⟨S8192x160, .f32⟩
  | .hbm, ⟨13, _⟩ => ⟨S8192x96, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x96, .f32⟩
  | .hbm, ⟨18, _⟩ => ⟨S_, .f32⟩
  | .hbm, ⟨19, _⟩ => ⟨S8192, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S96x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S8192x160, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x160, .f32⟩
  | .hbm, ⟨46, _⟩ => ⟨S_, .f32⟩
  | .hbm, ⟨47, _⟩ => ⟨S8192, .f32⟩
  | .hbm, ⟨48, _⟩ => ⟨S1x8192, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S160x8192, .f32⟩
  | .hbm, ⟨53, _⟩ => ⟨S8192x8192, .f32⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S8192x8192, .f32⟩
  | .hbm, ⟨68, _⟩ => ⟨S8192x8192, .f32⟩
  | .hbm, ⟨69, _⟩ => ⟨S8192x64, .f32⟩
  | .hbm, ⟨70, _⟩ => ⟨S8192x64, .f32⟩
  | .hbm, ⟨71, _⟩ => ⟨S8192x64, .f32⟩
  | .hbm, ⟨72, _⟩ => ⟨S8192x64, .f32⟩
  | .hbm, ⟨73, _⟩ => ⟨S8192x64, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]

class Facts₀ : Prop where
  concatenates_S8192x32_S8192x64_S8192x96_d1 : Shape.Concatenates [S8192x32, S8192x64] S8192x96 1
  bcast_S_S8192x64 : S_.BroadcastsInDim S8192x64 (![] : Fin 0 → Fin S8192x64.rank)
  concatenates_S8192x32_S8192x64_S8192x64_S8192x160_d1 : Shape.Concatenates [S8192x32, S8192x64, S8192x64] S8192x160 1
  reducesTo_S8192x96_S8192_d1 : S8192x96.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x96_S96x8192_1_0 : S8192x96.Transposes [1, 0] S96x8192
  bcast_S_S8192x8192 : S_.BroadcastsInDim S8192x8192 (![] : Fin 0 → Fin S8192x8192.rank)
  reducesTo_S8192x160_S8192_d1 : S8192x160.ReducesTo [1] S8192
  transposes_S8192x160_S160x8192_1_0 : S8192x160.Transposes [1, 0] S160x8192
  dot_S8192x96_S96x8192_S8192x8192_1_0_0_1_n_n_wf : DotDims.WF S8192x96 S96x8192 S8192x8192 [1] [0] [0] [1] [] []
  dot_S8192x160_S160x8192_S8192x8192_1_0_0_1_n_n_wf : DotDims.WF S8192x160 S160x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x96_S96x8192_S8192x8192_1_0_0_1_n_n : DotDims S8192x96 S96x8192 S8192x8192 where
  lhsContracting := [1]
  rhsContracting := [0]
  lhsNonContracting := [0]
  rhsNonContracting := [1]
  lhsBatch := []
  rhsBatch := []
  wf := dot_S8192x96_S96x8192_S8192x8192_1_0_0_1_n_n_wf
def dot_S8192x160_S160x8192_S8192x8192_1_0_0_1_n_n : DotDims S8192x160 S160x8192 S8192x8192 where
  lhsContracting := [1]
  rhsContracting := [0]
  lhsNonContracting := [0]
  rhsNonContracting := [1]
  lhsBatch := []
  rhsBatch := []
  wf := dot_S8192x160_S160x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.BodyBits.lean ====
/-
  The kernel's body at one grid point, as a triple over whole staging buffers.

  The body keeps an accumulator in a scratch buffer. At a grid point (i, j) it
    * clears the accumulator when j = 0,
    * adds to it the product of the first Gaussian tile with the first value block, then the product of the second
      Gaussian tile with the second value block (`accStep`),
    * and when j is the last column writes the accumulator plus lanes 32 … 95 of the row block to the output (`outVal`).
  So there are three cases of its two conditionals: the first column, a middle column, the last column. In each
  the six input buffers are read and left as they were; the output buffer is left as it was except in the last case.
-/
import proofs.«107588_j19954418057367_2_alg».proof.Proof.Gen.Kernel.Launch
import proofs.«107588_j19954418057367_2_alg».proof.Proof.Gen.Kernel.Skeleton
import proofs.«107588_j19954418057367_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store through the rectangle that is the whole shape, made last, leaves its payload: whatever the buffer held and
    whatever the earlier stores were, the buffer reads back as that payload. -/
theorem read_writes_whole_last {sig' : RefSig} {κ' : Kind} {sp' : Space} {S : Shape} {e : EltTy} {Val : EltTy → Type} [∀ e, Nonempty (Val e)]
    (v : View sig' κ' sp' S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, by
    subst h; show y ∈ (Rect.whole S).set; rw [Rect.set_whole]; exact Finset.mem_univ y⟩), View.canon_cons_unit_zero h inb w L]

/-- The offsets of a rectangle that starts at the origin of a rank-2 shape. -/
theorem zero_off2 : (![0, 0] : Fin 2 → Nat) = fun _ => 0 := by
  funext a; match a with | ⟨0, _⟩ => rfl | ⟨1, _⟩ => rfl

/-- A load of the whole shape after stores of which the last was through the whole shape reads that store's payload. -/
theorem readCov_whole_last {sig' : RefSig} {κ' : Kind} {sp' : Space} {S : Shape} {e : EltTy} {Val : EltTy → Type} [∀ e, Nonempty (Val e)]
    (v : View sig' κ' sp' S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The test of the first conditional: the column coordinate is 0. -/
abbrev condFirst (i : grid0.Coords) : Prop := (Scalar.cmpi .ne (Scalar.extui (Scalar.cmpi .eq (BitVec.ofNat 32 (i 1).val) 0#32)) 0#32) = 1#1
/-- The test of the last conditional: the column coordinate is 7. -/
abbrev condLast (i : grid0.Coords) : Prop := k0_cond2 i = 1#1

/-- One grid point's update of the accumulator `a`: the first tile's product with `x4` added, then the second
    tile's product with `x5`. -/
def accStep (x0 x1 : Vec F S1024x96 .f32) (x2 x3 : Vec F S1024x160 .f32) (x4 x5 a : Vec F S1024x64 .f32) : Vec F S1024x64 .f32 :=
  k0_pay1 (k0_pay7 x2 x3 (k0_pay6 (k0_pay5 x0 x1 a x4)) x5)

/-- What the last column writes to the output: the accumulator plus lanes 32 … 95 of the row block `x0`. -/
def outVal (x0 : Vec F S1024x96 .f32) (acc : Vec F S1024x64 .f32) : Vec F S1024x64 .f32 :=
  k0_pay2 (k0_pay4 x0) acc

/-- A middle column: the accumulator is updated, the output buffer untouched. -/
theorem run_mid (c : Dev nD) (i : grid0.Coords) (arg2 : Memref sig .tc .vmem S1024x96 .f32) (harg2 : arg2.IsWhole) (arg3 : Memref sig .tc .vmem S1024x96 .f32) (harg3 : arg3.IsWhole) (arg4 : Memref sig .tc .vmem S1024x160 .f32) (harg4 : arg4.IsWhole) (arg5 : Memref sig .tc .vmem S1024x160 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (hc1 : ¬ condFirst i) (hc2 : ¬ condLast i)
    (x0 x1 : Vec F S1024x96 .f32) (x2 x3 : Vec F S1024x160 .f32) (x4 x5 o a : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4 ∗ owns (c : Thread nD τ) arg7 fullShare x5 ∗ owns (c : Thread nD τ) arg8 fullShare o ∗ owns (c : Thread nD τ) arg9 fullShare a
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare o ∗ owns (c : Thread nD τ) arg9 fullShare (accStep x0 x1 x2 x3 x4 x5 a)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_run_names
  rw [read_writes_whole_last (S := S1024x64) _ _ zero_off2]
  unfold accStep
  simp only [View.readAt_eq_ld, hf0, hf1, hf2, hf3, hf4, hf5, hf6, hf7, View.ld_unit_zero (S := S1024x96) zero_off2,
    View.ld_unit_zero (S := S1024x160) zero_off2, View.ld_unit_zero (S := S1024x64) zero_off2, readCov_whole_last (S := S1024x64) _ zero_off2]

/-- The first column: the accumulator is cleared first, so what it held before does not matter. -/
theorem run_first (c : Dev nD) (i : grid0.Coords) (arg2 : Memref sig .tc .vmem S1024x96 .f32) (harg2 : arg2.IsWhole) (arg3 : Memref sig .tc .vmem S1024x96 .f32) (harg3 : arg3.IsWhole) (arg4 : Memref sig .tc .vmem S1024x160 .f32) (harg4 : arg4.IsWhole) (arg5 : Memref sig .tc .vmem S1024x160 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (hc1 : condFirst i) (hc2 : ¬ condLast i)
    (x0 x1 : Vec F S1024x96 .f32) (x2 x3 : Vec F S1024x160 .f32) (x4 x5 o a : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4 ∗ owns (c : Thread nD τ) arg7 fullShare x5 ∗ owns (c : Thread nD τ) arg8 fullShare o ∗ owns (c : Thread nD τ) arg9 fullShare a
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare o ∗ owns (c : Thread nD τ) arg9 fullShare (accStep x0 x1 x2 x3 x4 x5 (k0_pay3 (F := F)))) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_run_names
  rw [read_writes_whole_last (S := S1024x64) _ _ zero_off2]
  unfold accStep
  simp only [View.readAt_eq_ld, hf0, hf1, hf2, hf3, hf4, hf5, hf6, hf7, View.ld_unit_zero (S := S1024x96) zero_off2,
    View.ld_unit_zero (S := S1024x160) zero_off2, View.ld_unit_zero (S := S1024x64) zero_off2, readCov_whole_last (S := S1024x64) _ zero_off2]

/-- The last column: the accumulator is updated and the output buffer takes `outVal` of the updated accumulator. -/
theorem run_last (c : Dev nD) (i : grid0.Coords) (arg2 : Memref sig .tc .vmem S1024x96 .f32) (harg2 : arg2.IsWhole) (arg3 : Memref sig .tc .vmem S1024x96 .f32) (harg3 : arg3.IsWhole) (arg4 : Memref sig .tc .vmem S1024x160 .f32) (harg4 : arg4.IsWhole) (arg5 : Memref sig .tc .vmem S1024x160 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (hc1 : ¬ condFirst i) (hc2 : condLast i)
    (x0 x1 : Vec F S1024x96 .f32) (x2 x3 : Vec F S1024x160 .f32) (x4 x5 o a : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4 ∗ owns (c : Thread nD τ) arg7 fullShare x5 ∗ owns (c : Thread nD τ) arg8 fullShare o ∗ owns (c : Thread nD τ) arg9 fullShare a
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare (outVal x0 (accStep x0 x1 x2 x3 x4 x5 a)) ∗ owns (c : Thread nD τ) arg9 fullShare (accStep x0 x1 x2 x3 x4 x5 a)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_run_names
    rw [read_writes_whole_last (S := S1024x64) _ _ zero_off2]
    unfold outVal accStep
    simp only [View.readAt_eq_ld, hf0, hf1, hf2, hf3, hf4, hf5, hf6, hf7, View.ld_unit_zero (S := S1024x96) zero_off2,
    View.ld_unit_zero (S := S1024x160) zero_off2, View.ld_unit_zero (S := S1024x64) zero_off2, readCov_whole_last (S := S1024x64) _ zero_off2]
  iexists _; isplitr
  swap; · iexact H7
  ipureintro
  sl_unfold_run_names
  rw [read_writes_whole_last (S := S1024x64) _ _ zero_off2]
  unfold accStep
  simp only [View.readAt_eq_ld, hf0, hf1, hf2, hf3, hf4, hf5, hf6, hf7, View.ld_unit_zero (S := S1024x96) zero_off2,
    View.ld_unit_zero (S := S1024x160) zero_off2, View.ld_unit_zero (S := S1024x64) zero_off2, readCov_whole_last (S := S1024x64) _ zero_off2]

end Cert.Kernel.Hand

end
-- ==== Proof.FrameDataBits.lean ====
/-
  The proof data of the one pipelined region, and how the argument arrays' buffers are dealt to its windows.

  The region has seven windows on a grid of 8 × 8 points, point t = 8·i + j: windows 0 and 1 read row blocks i and j of
  X_mean (ONE array, two windows), windows 2 and 3 row blocks i and j of X_var (again one array), windows 4 and 5 row
  block j of V_mean and of V_var, and window 6 is the output's row block i, written back after the last column.
  Between points the body keeps its accumulator in a scratch buffer: after point t it holds `accAt t`, defined by
  recursion on the point — cleared at the first column of each row block, then one `accStep` per point.
  Each input buffer holds its array's block at every point, fetched there or not. X_mean's buffer and X_var's buffer,
  held whole when the region is entered, are each split into two halves, one for each of the two windows that read it.
-/
import proofs.«107588_j19954418057367_2_alg».proof.Proof.Gen.Kernel.Launch
import proofs.«107588_j19954418057367_2_alg».proof.Proof.Gen.Kernel.Skeleton
import proofs.«107588_j19954418057367_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«107588_j19954418057367_2_alg».proof.Proof.BodyBits
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffer contents when the region is entered: after the three stretches of host operations. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- None of the host operations allocates a buffer. -/
theorem host_fresh : ([hostOps0, hostOps0_1, hostOps0_2] : List (List (HloOp τ sig (Elt F)))).Forall fun ops => ops.Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] ⟨hostOps0_sub, hostOps0_1_sub, hostOps0_2_sub⟩ host_fresh main_chain

/-! ## The windows' blocks and staging buffers -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 (t : Fin cfg0.N) : Memref sig .tc .vmem S1024x96 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x96 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x160 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x160 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x64 .f32 := win0_6.stage (cfg0.slots t 6)
abbrev hs6 (t : Fin cfg0.N) : (ms6 t).IsWhole := hstage0_6 ((cfg0.slots t 6).cast nbuf0_6)
/-- The scratch buffer that holds the accumulator. -/
abbrev scM : Memref sig .tc .vmem S1024x64 .f32 := Memref.whole cc0_scratch0

/-! ## The accumulator, point by point -/

/-- What the accumulator holds after the body at position `n`: at the first column of a row block the update of the
    cleared accumulator, otherwise the update of what the point before left. -/
def accAt (c : Dev nD) : (n : ℕ) → n < cfg0.N → Vec F S1024x64 .f32
  | 0, hn => accStep (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (k0_pay3 (F := F))
  | n + 1, hn => accStep (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
      (if (n + 1) % 8 = 0 then (k0_pay3 (F := F)) else accAt c n (Nat.lt_of_succ_lt hn))

/-- At the first column of a row block. -/
theorem accAt_first (c : Dev nD) (t : Fin cfg0.N) (h : t.val % 8 = 0) :
    accAt m c t.val t.isLt = accStep (iblk m c 0 t) (iblk m c 1 t) (iblk m c 2 t) (iblk m c 3 t) (iblk m c 4 t) (iblk m c 5 t) (k0_pay3 (F := F)) := by
  obtain ⟨n, hn⟩ := t
  cases n with
  | zero => rfl
  | succ n => show accStep _ _ _ _ _ _ (if (n + 1) % 8 = 0 then _ else _) = _; rw [if_pos h]

/-- At a later column. -/
theorem accAt_next (c : Dev nD) (t : Fin cfg0.N) (h : ¬ t.val % 8 = 0) :
    accAt m c t.val t.isLt = accStep (iblk m c 0 t) (iblk m c 1 t) (iblk m c 2 t) (iblk m c 3 t) (iblk m c 4 t) (iblk m c 5 t) (accAt m c (t.val - 1) (Nat.lt_of_le_of_lt (Nat.sub_le _ _) t.isLt)) := by
  obtain ⟨n, hn⟩ := t
  cases n with
  | zero => exact absurd (Nat.zero_mod _) h
  | succ n => show accStep _ _ _ _ _ _ (if (n + 1) % 8 = 0 then _ else _) = _; rw [if_neg h]; rfl

/-- The scoped buffers that are no staging buffer: the scratch, at some contents. -/
theorem rest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

/-- The invariant before position `n`: before the first point the scratch at anything, afterwards at `accAt (n - 1)`. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (accAt m c n hn)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The proof data on core `c`: the arrays as the region finds them; after the body each input's buffer at its block,
    the output's at `outVal` of the row block and the accumulator (consulted only at the last column); the
    invariant `PhiS`; the two windows on X_mean hold a half of its buffer each, likewise the two on X_var; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outVal (iblk m c 0 t) (accAt m c t.val t.isLt)
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outVal (iblk m c 0 t) (accAt m c t.val t.isLt) := by dsimp only [dats]

/-- Input window 0's buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- Input window 1's buffer holds its block at every point, fetched there or not. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- Input window 2's buffer holds its block at every point, fetched there or not. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- Input window 3's buffer holds its block at every point, fetched there or not. -/
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
/-- Input window 4's buffer holds its block at every point, fetched there or not. -/
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
/-- Input window 5's buffer holds its block at every point, fetched there or not. -/
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## Dealing the arrays' buffers to the windows -/

/-- The five distinct buffers behind the seven windows' arrays. -/
theorem arr_image : Finset.univ.image (Pipeline.arrRef spec0) = {main_v1, main_v5, main_arg4, main_arg5, main_v6} := by decide

/-- The buffers behind the arrays, whole at the region-entry contents, make every window's holding: X_mean's buffer and
    X_var's buffer are each split into a left and a right half, for the two windows that read it. -/
theorem hsplit (c : Dev nD) :
    (Pipeline.arrBufs spec0 c (V m c) : sProp 𝕄) ⊢ (dats m 0 c).arrays ((dats m 0 c).arrAt · 0) := by
  have hL : (Pipeline.arrBufs spec0 c (V m c) : sProp 𝕄)
      = iprop((((c : Thread nD τ).loc main_v1) ↦{fullShare} V m c main_v1) ∗ (((c : Thread nD τ).loc main_v5) ↦{fullShare} V m c main_v5)
          ∗ (((c : Thread nD τ).loc main_arg4) ↦{fullShare} V m c main_arg4) ∗ (((c : Thread nD τ).loc main_arg5) ↦{fullShare} V m c main_arg5)
          ∗ (((c : Thread nD τ).loc main_v6) ↦{fullShare} V m c main_v6)) := by
    unfold Pipeline.arrBufs
    rw [arr_image, bigSep_insert (by decide), bigSep_insert (by decide), bigSep_insert (by decide), bigSep_insert (by decide), bigSep_singleton]
    rfl
  have hR : ((dats m 0 c).arrays ((dats m 0 c).arrAt · 0) : sProp 𝕄)
      = iprop((((c : Thread nD τ).loc main_v1) ↦{fullShare.left} V m c main_v1) ∗ (((c : Thread nD τ).loc main_v1) ↦{fullShare.right} V m c main_v1)
          ∗ (((c : Thread nD τ).loc main_v5) ↦{fullShare.left} V m c main_v5) ∗ (((c : Thread nD τ).loc main_v5) ↦{fullShare.right} V m c main_v5)
          ∗ (((c : Thread nD τ).loc main_arg4) ↦{fullShare} V m c main_arg4) ∗ (((c : Thread nD τ).loc main_arg5) ↦{fullShare} V m c main_arg5)
          ∗ (((c : Thread nD τ).loc main_v6) ↦{fullShare} V m c main_v6)) := by
    unfold Dat.arrays
    rw [bigSep_W0]
    simp only [(arr_whole0 (0 : Fin 7)).set_eq_univ, (arr_whole0 (1 : Fin 7)).set_eq_univ, (arr_whole0 (2 : Fin 7)).set_eq_univ, (arr_whole0 (3 : Fin 7)).set_eq_univ,
      (arr_whole0 (4 : Fin 7)).set_eq_univ, (arr_whole0 (5 : Fin 7)).set_eq_univ, (arr_whole0 (6 : Fin 7)).set_eq_univ]
    rfl
  rw [hL, hR]
  iintro ⟨H1, H5, Ha4, Ha5, H6⟩
  ihave H1 := (pointsTo_share (PosShare.mem_left_op_right fullShare)).1 $$ H1
  icases H1 with ⟨H1l, H1r⟩
  ihave H5 := (pointsTo_share (PosShare.mem_left_op_right fullShare)).1 $$ H5
  icases H5 with ⟨H5l, H5r⟩
  isplitl [H1l]; · iexact H1l
  isplitl [H1r]; · iexact H1r
  isplitl [H5l]; · iexact H5l
  isplitl [H5r]; · iexact H5r
  isplitl [Ha4]; · iexact Ha4
  isplitl [Ha5]; · iexact Ha5
  iexact H6

end Cert.Kernel.Hand

end
-- ==== Proof.LibSharedFrameTrack.lean ====
/-
  The frame run of a pipelined kernel whose input windows may read ONE array through several windows, when the
  kernel CARRIES something between grid points in its scratch buffers.

  As for a kernel that carries nothing, the array's buffer, held whole at the full share when the region is
  entered, is dealt out among the windows that read it, each at a positive share of its own. What differs is the
  invariant between points: instead of "the scoped buffers that are no staging buffer, at some contents", the
  certificate states point by point what those buffers hold, provided that
    * before the first point the plain statement (every such buffer at some contents) yields the invariant, and
    * after the last point the invariant yields the plain statement back.
  The kernel has no semaphore or transfer of its own and does not use the generator register.

  The conclusion is the same post as for distinct arrays: after the run every window's array holds what the
  pipeline computes from the proof data, and every other unscoped buffer what it held when the region was entered.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedFrameTrack

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run when windows may share arrays and the invariant TRACKS the scratch buffers. `hinj`: the
    program's staging cells are pairwise distinct; `hw`: the windows' layout facts, the arrays' distinctness
    apart; `hsplit`: the buffers behind the arrays, whole at the region-entry contents `V`, yield every
    window's holding at its share; `hin` / `hout`: the scoped buffers that are no staging buffer, each at some
    contents, yield the invariant before the first point, and the invariant after the last point yields them
    back. -/
theorem θ_run_frame_shared_track
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (Ix := Unit) (Name := ℕ) (U := UR sig nD τ) (Lvl := ℕ) (Val := Val) (cfg).spec c : sProp 𝕄) ⊢ (dats p c).Φ 0)
    (hout : ∀ c, (dats p c).Φ (Fin.last (cfg).N) ⊢ (scopedRest (Ix := Unit) (Name := ℕ) (U := UR sig nD τ) (Lvl := ℕ) (Val := Val) (cfg).spec c : sProp 𝕄)) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    V hmain hsplit
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr
      · iempintro
      · iexact HU)
    (hin := fun c => (show _ ⊢ (scopedRest (Ix := Unit) (Name := ℕ) (U := UR sig nD τ) (Lvl := ℕ) (Val := Val) (cfg).spec c : sProp 𝕄) from by
      iintro ⟨-, HR⟩
      iexact HR).trans (hin c))
    (hout := fun c => (hout c).trans (by
      iintro HR
      isplitr
      · iempintro
      · iexact HR))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end SharedFrameTrack

end Pipeline

end Idealize.ShloMosaic

end
-- ==== Proof.FrameRunBits.lean ====
/-
  The body obligation at every grid point, the run of the whole program, and its frame.

  Point t = 8·i + j is in the first column when t mod 8 = 0 and in the last when t mod 8 = 7. In the first column the
  body clears the accumulator, so it may be handed the scratch at anything (before the very first point) or at what the
  previous row block left. The output window is idle except in the last column, where the body stores into it and the
  pipeline writes the block back. After the run the argument arrays hold what they held: four of them bypass the
  region, two are input windows' arrays.
-/
import proofs.«107588_j19954418057367_2_alg».proof.Proof.Gen.Kernel.Launch
import proofs.«107588_j19954418057367_2_alg».proof.Proof.Gen.Kernel.Skeleton
import proofs.«107588_j19954418057367_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«107588_j19954418057367_2_alg».proof.Proof.FrameDataBits
import proofs.«107588_j19954418057367_2_alg».proof.Proof.LibSharedFrameTrack
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions and the idle points, in closed form over the grid -/

theorem hFirst : ∀ t : Fin cfg0.N, condFirst (grid0.coords t) ↔ t.val % 8 = 0 :=
  (by decide +kernel : ∀ t : Fin grid0.N, condFirst (grid0.coords t) ↔ t.val % 8 = 0)
theorem hLast : ∀ t : Fin cfg0.N, condLast (grid0.coords t) ↔ t.val % 8 = 7 :=
  (by decide +kernel : ∀ t : Fin grid0.N, condLast (grid0.coords t) ↔ t.val % 8 = 7)
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
/-- Away from the last column the output window is idle and is not written back. -/
theorem idle6 : ∀ t : Fin cfg0.N, ¬ t.val % 8 = 7 → cfg0.idle 6 (grid0.coords t) = true := by decide +kernel
theorem noflush6 : ∀ t : Fin cfg0.N, ¬ t.val % 8 = 7 → (cfg0.win 6).flush t = false := by decide +kernel
/-- In the last column it is live. -/
theorem live6 : ∀ t : Fin cfg0.N, t.val % 8 = 7 → cfg0.idle 6 (grid0.coords t) = false := by decide +kernel

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the inputs' buffers hold their blocks; the column decides the case; the invariant hands the
    body the scratch and takes it back at this point's accumulator. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  by_cases h0 : t.val % 8 = 0
  · have h7 : ¬ t.val % 8 = 7 := by omega
    rw [Dat.leavesExact_idle (dats m 0 c) 6 t (idle6 t h7) (noflush6 t h7)]
    rw [accAt_first m c t h0]
    by_cases hz : t.val = 0
    · rw [Phi_castSucc m c t, PhiS_zero m c _ _ hz, rest_eq]
      iintro ⟨⟨%a, HS⟩, Ho, ⟨%d0, H0⟩, ⟨%d1, H1⟩, ⟨%d2, H2⟩, ⟨%d3, H3⟩, ⟨%d4, H4⟩, ⟨%d5, H5⟩, ⟨%d6, H6⟩⟩
      iapply (run_first c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hFirst t).mpr h0) (fun h => h7 ((hLast t).mp h))
        (iblk m c 0 t) (iblk m c 1 t) (iblk m c 2 t) (iblk m c 3 t) (iblk m c 4 t) (iblk m c 5 t) ((dats m 0 c).before 6 t d6) a Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩⟩
      iapply (run_first c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hFirst t).mpr h0) (fun h => h7 ((hLast t).mp h))
        (iblk m c 0 t) (iblk m c 1 t) (iblk m c 2 t) (iblk m c 3 t) (iblk m c 4 t) (iblk m c 5 t) ((dats m 0 c).before 6 t d6) (accAt m c (t.val - 1) (by omega)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h7 : t.val % 8 = 7
    · rw [show (dats m 0 c).leavesExact 6 t = owns (c : Thread nD τ) (ms6 t) fullShare ((dats m 0 c).after 6 t) from by
        unfold Dat.leavesExact; rw [live6 t h7], after6]
      rw [accAt_next m c t h0]
      rw [Phi_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩⟩
      iapply (run_last c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hFirst t).mp h)) ((hLast t).mpr h7)
        (iblk m c 0 t) (iblk m c 1 t) (iblk m c 2 t) (iblk m c 3 t) (iblk m c 4 t) (iblk m c 5 t) ((dats m 0 c).before 6 t d6) (accAt m c (t.val - 1) (by omega)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats m 0 c) 6 t (idle6 t h7) (noflush6 t h7)]
      rw [accAt_next m c t h0]
      rw [Phi_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩⟩
      iapply (run_mid c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hFirst t).mp h)) (fun h => h7 ((hLast t).mp h))
        (iblk m c 0 t) (iblk m c 1 t) (iblk m c 2 t) (iblk m c 3 t) (iblk m c 4 t) (iblk m c 5 t) ((dats m 0 c).before 6 t d6) (accAt m c (t.val - 1) (by omega)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the scratch holds anything: that is the invariant there. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After the last point the accumulator's contents are forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), rest_eq]
  iintro HS
  iexists _; iexact HS

/-! ## The run and the frame -/

set_option backward.isDefEq.respectTransparency.types false in
/-- Every weakly fair execution of the program terminates, faults nowhere, and ends with every window's array at what
    the pipeline computes from the proof data and every other unscoped buffer at its region-entry contents. -/
theorem run_main : θ_run defs (onTc (τ := τ) (main (F := F))) (s₀ m ρ) (Pipeline.FramePost cfgs (dats m) 0 (V m)) :=
  Pipeline.θ_run_frame_shared_track cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := hsplit m) (hin := hin m) (hout := hout m)

/-- The host operations before the region write none of the six argument arrays. -/
theorem V_args (c : Dev nD) :
    V m c main_arg0 = m ((c.tc : Thread nD τ).loc main_arg0) ∧ V m c main_arg1 = m ((c.tc : Thread nD τ).loc main_arg1)
    ∧ V m c main_arg2 = m ((c.tc : Thread nD τ).loc main_arg2) ∧ V m c main_arg3 = m ((c.tc : Thread nD τ).loc main_arg3)
    ∧ V m c main_arg4 = m ((c.tc : Thread nD τ).loc main_arg4) ∧ V m c main_arg5 = m ((c.tc : Thread nD τ).loc main_arg5) := by
  refine ⟨?_, ?_, ?_, ?_, ?_, ?_⟩ <;>
  · dsimp only [V, V0]
    simp only [hostOps0, hostOps0_1, hostOps0_2, List.flatten_cons, List.flatten_nil, List.append_nil, List.cons_append, List.nil_append]
    after_results

/-- The frame: the program runs and its six argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 rfl (by decide))).trans (V_args m c).1,
     ((h c).2 main_arg1 (Pipeline.mem_restRefs_of main_arg1 rfl (by decide))).trans (V_args m c).2.1,
     ((h c).2 main_arg2 (Pipeline.mem_restRefs_of main_arg2 rfl (by decide))).trans (V_args m c).2.2.1,
     ((h c).2 main_arg3 (Pipeline.mem_restRefs_of main_arg3 rfl (by decide))).trans (V_args m c).2.2.2.1,
     ((h c).1 4).trans (((dats m 0 c).arrAt_in 4 rfl _).trans ((A_eq m c 4).trans (V_args m c).2.2.2.2.1)),
     ((h c).1 5).trans (((dats m 0 c).arrAt_in 5 rfl _).trans ((A_eq m c 5).trans (V_args m c).2.2.2.2.2))⟩) (run_main m ρ)

end Cert.Kernel.Hand

end
-- ==== Proof.BodyIdeal.lean ====
/-
  The kernel's body at one grid point, as a triple over whole staging buffers.

  The body keeps an accumulator in a scratch buffer. At a grid point (i, j) it
    * clears the accumulator when j = 0,
    * adds to it the product of the first Gaussian tile with the first value block, then the product of the second
      Gaussian tile with the second value block (`accStep`),
    * and when j is the last column writes the accumulator plus lanes 32 … 95 of the row block to the output (`outVal`).
  So there are three cases of its two conditionals: the first column, a middle column, the last column. In each
  the six input buffers are read and left as they were; the output buffer is left as it was except in the last case.
-/
import proofs.«107588_j19954418057367_2_alg».proof.Proof.Gen.KernelIdeal.Launch
import proofs.«107588_j19954418057367_2_alg».proof.Proof.Gen.KernelIdeal.Skeleton
import proofs.«107588_j19954418057367_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A store through the rectangle that is the whole shape, made last, leaves its payload: whatever the buffer held and
    whatever the earlier stores were, the buffer reads back as that payload. -/
theorem read_writes_whole_last {sig' : RefSig} {κ' : Kind} {sp' : Space} {S : Shape} {e : EltTy} {Val : EltTy → Type} [∀ e, Nonempty (Val e)]
    (v : View sig' κ' sp' S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, by
    subst h; show y ∈ (Rect.whole S).set; rw [Rect.set_whole]; exact Finset.mem_univ y⟩), View.canon_cons_unit_zero h inb w L]

/-- The offsets of a rectangle that starts at the origin of a rank-2 shape. -/
theorem zero_off2 : (![0, 0] : Fin 2 → Nat) = fun _ => 0 := by
  funext a; match a with | ⟨0, _⟩ => rfl | ⟨1, _⟩ => rfl

/-- A load of the whole shape after stores of which the last was through the whole shape reads that store's payload. -/
theorem readCov_whole_last {sig' : RefSig} {κ' : Kind} {sp' : Space} {S : Shape} {e : EltTy} {Val : EltTy → Type} [∀ e, Nonempty (Val e)]
    (v : View sig' κ' sp' S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The test of the first conditional: the column coordinate is 0. -/
abbrev condFirst (i : grid0.Coords) : Prop := (Scalar.cmpi .ne (Scalar.extui (Scalar.cmpi .eq (BitVec.ofNat 32 (i 1).val) 0#32)) 0#32) = 1#1
/-- The test of the last conditional: the column coordinate is 7. -/
abbrev condLast (i : grid0.Coords) : Prop := k0_cond2 i = 1#1

/-- One grid point's update of the accumulator `a`: the first tile's product with `x4` added, then the second
    tile's product with `x5`. -/
def accStep (x0 x1 : Vec F S1024x96 .f32) (x2 x3 : Vec F S1024x160 .f32) (x4 x5 a : Vec F S1024x64 .f32) : Vec F S1024x64 .f32 :=
  k0_pay1 (k0_pay7 x2 x3 (k0_pay6 (k0_pay5 x0 x1 a x4)) x5)

/-- What the last column writes to the output: the accumulator plus lanes 32 … 95 of the row block `x0`. -/
def outVal (x0 : Vec F S1024x96 .f32) (acc : Vec F S1024x64 .f32) : Vec F S1024x64 .f32 :=
  k0_pay2 (k0_pay4 x0) acc

/-- A middle column: the accumulator is updated, the output buffer untouched. -/
theorem run_mid (c : Dev nD) (i : grid0.Coords) (arg2 : Memref sig .tc .vmem S1024x96 .f32) (harg2 : arg2.IsWhole) (arg3 : Memref sig .tc .vmem S1024x96 .f32) (harg3 : arg3.IsWhole) (arg4 : Memref sig .tc .vmem S1024x160 .f32) (harg4 : arg4.IsWhole) (arg5 : Memref sig .tc .vmem S1024x160 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (hc1 : ¬ condFirst i) (hc2 : ¬ condLast i)
    (x0 x1 : Vec F S1024x96 .f32) (x2 x3 : Vec F S1024x160 .f32) (x4 x5 o a : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4 ∗ owns (c : Thread nD τ) arg7 fullShare x5 ∗ owns (c : Thread nD τ) arg8 fullShare o ∗ owns (c : Thread nD τ) arg9 fullShare a
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare o ∗ owns (c : Thread nD τ) arg9 fullShare (accStep x0 x1 x2 x3 x4 x5 a)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_run_names
  rw [read_writes_whole_last (S := S1024x64) _ _ zero_off2]
  unfold accStep
  simp only [View.readAt_eq_ld, hf0, hf1, hf2, hf3, hf4, hf5, hf6, hf7, View.ld_unit_zero (S := S1024x96) zero_off2,
    View.ld_unit_zero (S := S1024x160) zero_off2, View.ld_unit_zero (S := S1024x64) zero_off2, readCov_whole_last (S := S1024x64) _ zero_off2]

/-- The first column: the accumulator is cleared first, so what it held before does not matter. -/
theorem run_first (c : Dev nD) (i : grid0.Coords) (arg2 : Memref sig .tc .vmem S1024x96 .f32) (harg2 : arg2.IsWhole) (arg3 : Memref sig .tc .vmem S1024x96 .f32) (harg3 : arg3.IsWhole) (arg4 : Memref sig .tc .vmem S1024x160 .f32) (harg4 : arg4.IsWhole) (arg5 : Memref sig .tc .vmem S1024x160 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (hc1 : condFirst i) (hc2 : ¬ condLast i)
    (x0 x1 : Vec F S1024x96 .f32) (x2 x3 : Vec F S1024x160 .f32) (x4 x5 o a : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4 ∗ owns (c : Thread nD τ) arg7 fullShare x5 ∗ owns (c : Thread nD τ) arg8 fullShare o ∗ owns (c : Thread nD τ) arg9 fullShare a
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare o ∗ owns (c : Thread nD τ) arg9 fullShare (accStep x0 x1 x2 x3 x4 x5 (k0_pay3 (F := F)))) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H7
  ipureintro
  sl_unfold_run_names
  rw [read_writes_whole_last (S := S1024x64) _ _ zero_off2]
  unfold accStep
  simp only [View.readAt_eq_ld, hf0, hf1, hf2, hf3, hf4, hf5, hf6, hf7, View.ld_unit_zero (S := S1024x96) zero_off2,
    View.ld_unit_zero (S := S1024x160) zero_off2, View.ld_unit_zero (S := S1024x64) zero_off2, readCov_whole_last (S := S1024x64) _ zero_off2]

/-- The last column: the accumulator is updated and the output buffer takes `outVal` of the updated accumulator. -/
theorem run_last (c : Dev nD) (i : grid0.Coords) (arg2 : Memref sig .tc .vmem S1024x96 .f32) (harg2 : arg2.IsWhole) (arg3 : Memref sig .tc .vmem S1024x96 .f32) (harg3 : arg3.IsWhole) (arg4 : Memref sig .tc .vmem S1024x160 .f32) (harg4 : arg4.IsWhole) (arg5 : Memref sig .tc .vmem S1024x160 .f32) (harg5 : arg5.IsWhole) (arg6 : Memref sig .tc .vmem S1024x64 .f32) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (hc1 : ¬ condFirst i) (hc2 : condLast i)
    (x0 x1 : Vec F S1024x96 .f32) (x2 x3 : Vec F S1024x160 .f32) (x4 x5 o a : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare x4 ∗ owns (c : Thread nD τ) arg7 fullShare x5 ∗ owns (c : Thread nD τ) arg8 fullShare o ∗ owns (c : Thread nD τ) arg9 fullShare a
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5 ∗ owns (c : Thread nD τ) arg8 fullShare (outVal x0 (accStep x0 x1 x2 x3 x4 x5 a)) ∗ owns (c : Thread nD τ) arg9 fullShare (accStep x0 x1 x2 x3 x4 x5 a)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6; obtain rfl := harg9.eq_unread hf7
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_run_names
    rw [read_writes_whole_last (S := S1024x64) _ _ zero_off2]
    unfold outVal accStep
    simp only [View.readAt_eq_ld, hf0, hf1, hf2, hf3, hf4, hf5, hf6, hf7, View.ld_unit_zero (S := S1024x96) zero_off2,
    View.ld_unit_zero (S := S1024x160) zero_off2, View.ld_unit_zero (S := S1024x64) zero_off2, readCov_whole_last (S := S1024x64) _ zero_off2]
  iexists _; isplitr
  swap; · iexact H7
  ipureintro
  sl_unfold_run_names
  rw [read_writes_whole_last (S := S1024x64) _ _ zero_off2]
  unfold accStep
  simp only [View.readAt_eq_ld, hf0, hf1, hf2, hf3, hf4, hf5, hf6, hf7, View.ld_unit_zero (S := S1024x96) zero_off2,
    View.ld_unit_zero (S := S1024x160) zero_off2, View.ld_unit_zero (S := S1024x64) zero_off2, readCov_whole_last (S := S1024x64) _ zero_off2]

end Cert.KernelIdeal.Hand

end
-- ==== Proof.FrameDataIdeal.lean ====
/-
  The proof data of the one pipelined region, and how the argument arrays' buffers are dealt to its windows.

  The region has seven windows on a grid of 8 × 8 points, point t = 8·i + j: windows 0 and 1 read row blocks i and j of
  X_mean (ONE array, two windows), windows 2 and 3 row blocks i and j of X_var (again one array), windows 4 and 5 row
  block j of V_mean and of V_var, and window 6 is the output's row block i, written back after the last column.
  Between points the body keeps its accumulator in a scratch buffer: after point t it holds `accAt t`, defined by
  recursion on the point — cleared at the first column of each row block, then one `accStep` per point.
  Each input buffer holds its array's block at every point, fetched there or not. X_mean's buffer and X_var's buffer,
  held whole when the region is entered, are each split into two halves, one for each of the two windows that read it.
-/
import proofs.«107588_j19954418057367_2_alg».proof.Proof.Gen.KernelIdeal.Launch
import proofs.«107588_j19954418057367_2_alg».proof.Proof.Gen.KernelIdeal.Skeleton
import proofs.«107588_j19954418057367_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«107588_j19954418057367_2_alg».proof.Proof.BodyIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffer contents when the region is entered: after the three stretches of host operations. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- None of the host operations allocates a buffer. -/
theorem host_fresh : ([hostOps0, hostOps0_1, hostOps0_2] : List (List (HloOp τ sig (Elt F)))).Forall fun ops => ops.Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] ⟨hostOps0_sub, hostOps0_1_sub, hostOps0_2_sub⟩ host_fresh main_chain

/-! ## The windows' blocks and staging buffers -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 (t : Fin cfg0.N) : Memref sig .tc .vmem S1024x96 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x96 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x160 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x160 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x64 .f32 := win0_6.stage (cfg0.slots t 6)
abbrev hs6 (t : Fin cfg0.N) : (ms6 t).IsWhole := hstage0_6 ((cfg0.slots t 6).cast nbuf0_6)
/-- The scratch buffer that holds the accumulator. -/
abbrev scM : Memref sig .tc .vmem S1024x64 .f32 := Memref.whole cc0_scratch0

/-! ## The accumulator, point by point -/

/-- What the accumulator holds after the body at position `n`: at the first column of a row block the update of the
    cleared accumulator, otherwise the update of what the point before left. -/
def accAt (c : Dev nD) : (n : ℕ) → n < cfg0.N → Vec F S1024x64 .f32
  | 0, hn => accStep (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (k0_pay3 (F := F))
  | n + 1, hn => accStep (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
      (if (n + 1) % 8 = 0 then (k0_pay3 (F := F)) else accAt c n (Nat.lt_of_succ_lt hn))

/-- At the first column of a row block. -/
theorem accAt_first (c : Dev nD) (t : Fin cfg0.N) (h : t.val % 8 = 0) :
    accAt m c t.val t.isLt = accStep (iblk m c 0 t) (iblk m c 1 t) (iblk m c 2 t) (iblk m c 3 t) (iblk m c 4 t) (iblk m c 5 t) (k0_pay3 (F := F)) := by
  obtain ⟨n, hn⟩ := t
  cases n with
  | zero => rfl
  | succ n => show accStep _ _ _ _ _ _ (if (n + 1) % 8 = 0 then _ else _) = _; rw [if_pos h]

/-- At a later column. -/
theorem accAt_next (c : Dev nD) (t : Fin cfg0.N) (h : ¬ t.val % 8 = 0) :
    accAt m c t.val t.isLt = accStep (iblk m c 0 t) (iblk m c 1 t) (iblk m c 2 t) (iblk m c 3 t) (iblk m c 4 t) (iblk m c 5 t) (accAt m c (t.val - 1) (Nat.lt_of_le_of_lt (Nat.sub_le _ _) t.isLt)) := by
  obtain ⟨n, hn⟩ := t
  cases n with
  | zero => exact absurd (Nat.zero_mod _) h
  | succ n => show accStep _ _ _ _ _ _ (if (n + 1) % 8 = 0 then _ else _) = _; rw [if_neg h]; rfl

/-- The scoped buffers that are no staging buffer: the scratch, at some contents. -/
theorem rest_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

/-- The invariant before position `n`: before the first point the scratch at anything, afterwards at `accAt (n - 1)`. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (accAt m c n hn)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The proof data on core `c`: the arrays as the region finds them; after the body each input's buffer at its block,
    the output's at `outVal` of the row block and the accumulator (consulted only at the last column); the
    invariant `PhiS`; the two windows on X_mean hold a half of its buffer each, likewise the two on X_var; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outVal (iblk m c 0 t) (accAt m c t.val t.isLt)
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outVal (iblk m c 0 t) (accAt m c t.val t.isLt) := by dsimp only [dats]

/-- Input window 0's buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- Input window 1's buffer holds its block at every point, fetched there or not. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- Input window 2's buffer holds its block at every point, fetched there or not. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- Input window 3's buffer holds its block at every point, fetched there or not. -/
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
/-- Input window 4's buffer holds its block at every point, fetched there or not. -/
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
/-- Input window 5's buffer holds its block at every point, fetched there or not. -/
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-! ## Dealing the arrays' buffers to the windows -/

/-- The five distinct buffers behind the seven windows' arrays. -/
theorem arr_image : Finset.univ.image (Pipeline.arrRef spec0) = {main_v1, main_v5, main_arg4, main_arg5, main_v6} := by decide

/-- The buffers behind the arrays, whole at the region-entry contents, make every window's holding: X_mean's buffer and
    X_var's buffer are each split into a left and a right half, for the two windows that read it. -/
theorem hsplit (c : Dev nD) :
    (Pipeline.arrBufs spec0 c (V m c) : sProp 𝕄) ⊢ (dats m 0 c).arrays ((dats m 0 c).arrAt · 0) := by
  have hL : (Pipeline.arrBufs spec0 c (V m c) : sProp 𝕄)
      = iprop((((c : Thread nD τ).loc main_v1) ↦{fullShare} V m c main_v1) ∗ (((c : Thread nD τ).loc main_v5) ↦{fullShare} V m c main_v5)
          ∗ (((c : Thread nD τ).loc main_arg4) ↦{fullShare} V m c main_arg4) ∗ (((c : Thread nD τ).loc main_arg5) ↦{fullShare} V m c main_arg5)
          ∗ (((c : Thread nD τ).loc main_v6) ↦{fullShare} V m c main_v6)) := by
    unfold Pipeline.arrBufs
    rw [arr_image, bigSep_insert (by decide), bigSep_insert (by decide), bigSep_insert (by decide), bigSep_insert (by decide), bigSep_singleton]
    rfl
  have hR : ((dats m 0 c).arrays ((dats m 0 c).arrAt · 0) : sProp 𝕄)
      = iprop((((c : Thread nD τ).loc main_v1) ↦{fullShare.left} V m c main_v1) ∗ (((c : Thread nD τ).loc main_v1) ↦{fullShare.right} V m c main_v1)
          ∗ (((c : Thread nD τ).loc main_v5) ↦{fullShare.left} V m c main_v5) ∗ (((c : Thread nD τ).loc main_v5) ↦{fullShare.right} V m c main_v5)
          ∗ (((c : Thread nD τ).loc main_arg4) ↦{fullShare} V m c main_arg4) ∗ (((c : Thread nD τ).loc main_arg5) ↦{fullShare} V m c main_arg5)
          ∗ (((c : Thread nD τ).loc main_v6) ↦{fullShare} V m c main_v6)) := by
    unfold Dat.arrays
    rw [bigSep_W0]
    simp only [(arr_whole0 (0 : Fin 7)).set_eq_univ, (arr_whole0 (1 : Fin 7)).set_eq_univ, (arr_whole0 (2 : Fin 7)).set_eq_univ, (arr_whole0 (3 : Fin 7)).set_eq_univ,
      (arr_whole0 (4 : Fin 7)).set_eq_univ, (arr_whole0 (5 : Fin 7)).set_eq_univ, (arr_whole0 (6 : Fin 7)).set_eq_univ]
    rfl
  rw [hL, hR]
  iintro ⟨H1, H5, Ha4, Ha5, H6⟩
  ihave H1 := (pointsTo_share (PosShare.mem_left_op_right fullShare)).1 $$ H1
  icases H1 with ⟨H1l, H1r⟩
  ihave H5 := (pointsTo_share (PosShare.mem_left_op_right fullShare)).1 $$ H5
  icases H5 with ⟨H5l, H5r⟩
  isplitl [H1l]; · iexact H1l
  isplitl [H1r]; · iexact H1r
  isplitl [H5l]; · iexact H5l
  isplitl [H5r]; · iexact H5r
  isplitl [Ha4]; · iexact Ha4
  isplitl [Ha5]; · iexact Ha5
  iexact H6

end Cert.KernelIdeal.Hand

end
-- ==== Proof.FrameRunIdeal.lean ====
/-
  The body obligation at every grid point, the run of the whole program, and its frame.

  Point t = 8·i + j is in the first column when t mod 8 = 0 and in the last when t mod 8 = 7. In the first column the
  body clears the accumulator, so it may be handed the scratch at anything (before the very first point) or at what the
  previous row block left. The output window is idle except in the last column, where the body stores into it and the
  pipeline writes the block back. After the run the argument arrays hold what they held: four of them bypass the
  region, two are input windows' arrays.
-/
import proofs.«107588_j19954418057367_2_alg».proof.Proof.Gen.KernelIdeal.Launch
import proofs.«107588_j19954418057367_2_alg».proof.Proof.Gen.KernelIdeal.Skeleton
import proofs.«107588_j19954418057367_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«107588_j19954418057367_2_alg».proof.Proof.FrameDataIdeal
import proofs.«107588_j19954418057367_2_alg».proof.Proof.LibSharedFrameTrack
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The conditions and the idle points, in closed form over the grid -/

theorem hFirst : ∀ t : Fin cfg0.N, condFirst (grid0.coords t) ↔ t.val % 8 = 0 :=
  (by decide +kernel : ∀ t : Fin grid0.N, condFirst (grid0.coords t) ↔ t.val % 8 = 0)
theorem hLast : ∀ t : Fin cfg0.N, condLast (grid0.coords t) ↔ t.val % 8 = 7 :=
  (by decide +kernel : ∀ t : Fin grid0.N, condLast (grid0.coords t) ↔ t.val % 8 = 7)
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
/-- Away from the last column the output window is idle and is not written back. -/
theorem idle6 : ∀ t : Fin cfg0.N, ¬ t.val % 8 = 7 → cfg0.idle 6 (grid0.coords t) = true := by decide +kernel
theorem noflush6 : ∀ t : Fin cfg0.N, ¬ t.val % 8 = 7 → (cfg0.win 6).flush t = false := by decide +kernel
/-- In the last column it is live. -/
theorem live6 : ∀ t : Fin cfg0.N, t.val % 8 = 7 → cfg0.idle 6 (grid0.coords t) = false := by decide +kernel

/-! ## The body obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the inputs' buffers hold their blocks; the column decides the case; the invariant hands the
    body the scratch and takes it back at this point's accumulator. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  by_cases h0 : t.val % 8 = 0
  · have h7 : ¬ t.val % 8 = 7 := by omega
    rw [Dat.leavesExact_idle (dats m 0 c) 6 t (idle6 t h7) (noflush6 t h7)]
    rw [accAt_first m c t h0]
    by_cases hz : t.val = 0
    · rw [Phi_castSucc m c t, PhiS_zero m c _ _ hz, rest_eq]
      iintro ⟨⟨%a, HS⟩, Ho, ⟨%d0, H0⟩, ⟨%d1, H1⟩, ⟨%d2, H2⟩, ⟨%d3, H3⟩, ⟨%d4, H4⟩, ⟨%d5, H5⟩, ⟨%d6, H6⟩⟩
      iapply (run_first c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hFirst t).mpr h0) (fun h => h7 ((hLast t).mp h))
        (iblk m c 0 t) (iblk m c 1 t) (iblk m c 2 t) (iblk m c 3 t) (iblk m c 4 t) (iblk m c 5 t) ((dats m 0 c).before 6 t d6) a Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩⟩
      iapply (run_first c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hFirst t).mpr h0) (fun h => h7 ((hLast t).mp h))
        (iblk m c 0 t) (iblk m c 1 t) (iblk m c 2 t) (iblk m c 3 t) (iblk m c 4 t) (iblk m c 5 t) ((dats m 0 c).before 6 t d6) (accAt m c (t.val - 1) (by omega)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h7 : t.val % 8 = 7
    · rw [show (dats m 0 c).leavesExact 6 t = owns (c : Thread nD τ) (ms6 t) fullShare ((dats m 0 c).after 6 t) from by
        unfold Dat.leavesExact; rw [live6 t h7], after6]
      rw [accAt_next m c t h0]
      rw [Phi_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩⟩
      iapply (run_last c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hFirst t).mp h)) ((hLast t).mpr h7)
        (iblk m c 0 t) (iblk m c 1 t) (iblk m c 2 t) (iblk m c 3 t) (iblk m c 4 t) (iblk m c 5 t) ((dats m 0 c).before 6 t d6) (accAt m c (t.val - 1) (by omega)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats m 0 c) 6 t (idle6 t h7) (noflush6 t h7)]
      rw [accAt_next m c t h0]
      rw [Phi_castSucc m c t, PhiS_pos m c _ _ hz]
      iintro ⟨HS, Ho, ⟨%d0, H0⟩, ⟨%d1, H1⟩, ⟨%d2, H2⟩, ⟨%d3, H3⟩, ⟨%d4, H4⟩, ⟨%d5, H5⟩, ⟨%d6, H6⟩⟩
      iapply (run_mid c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hFirst t).mp h)) (fun h => h7 ((hLast t).mp h))
        (iblk m c 0 t) (iblk m c 1 t) (iblk m c 2 t) (iblk m c 3 t) (iblk m c 4 t) (iblk m c 5 t) ((dats m 0 c).before 6 t d6) (accAt m c (t.val - 1) (by omega)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the scratch holds anything: that is the invariant there. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After the last point the accumulator's contents are forgotten. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), rest_eq]
  iintro HS
  iexists _; iexact HS

/-! ## The run and the frame -/

set_option backward.isDefEq.respectTransparency.types false in
/-- Every weakly fair execution of the program terminates, faults nowhere, and ends with every window's array at what
    the pipeline computes from the proof data and every other unscoped buffer at its region-entry contents. -/
theorem run_main : θ_run defs (onTc (τ := τ) (main (F := F))) (s₀ m ρ) (Pipeline.FramePost cfgs (dats m) 0 (V m)) :=
  Pipeline.θ_run_frame_shared_track cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := hsplit m) (hin := hin m) (hout := hout m)

/-- The host operations before the region write none of the six argument arrays. -/
theorem V_args (c : Dev nD) :
    V m c main_arg0 = m ((c.tc : Thread nD τ).loc main_arg0) ∧ V m c main_arg1 = m ((c.tc : Thread nD τ).loc main_arg1)
    ∧ V m c main_arg2 = m ((c.tc : Thread nD τ).loc main_arg2) ∧ V m c main_arg3 = m ((c.tc : Thread nD τ).loc main_arg3)
    ∧ V m c main_arg4 = m ((c.tc : Thread nD τ).loc main_arg4) ∧ V m c main_arg5 = m ((c.tc : Thread nD τ).loc main_arg5) := by
  refine ⟨?_, ?_, ?_, ?_, ?_, ?_⟩ <;>
  · dsimp only [V, V0]
    simp only [hostOps0, hostOps0_1, hostOps0_2, List.flatten_cons, List.flatten_nil, List.append_nil, List.cons_append, List.nil_append]
    after_results

/-- The frame: the program runs and its six argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 rfl (by decide))).trans (V_args m c).1,
     ((h c).2 main_arg1 (Pipeline.mem_restRefs_of main_arg1 rfl (by decide))).trans (V_args m c).2.1,
     ((h c).2 main_arg2 (Pipeline.mem_restRefs_of main_arg2 rfl (by decide))).trans (V_args m c).2.2.1,
     ((h c).2 main_arg3 (Pipeline.mem_restRefs_of main_arg3 rfl (by decide))).trans (V_args m c).2.2.2.1,
     ((h c).1 4).trans (((dats m 0 c).arrAt_in 4 rfl _).trans ((A_eq m c 4).trans (V_args m c).2.2.2.2.1)),
     ((h c).1 5).trans (((dats m 0 c).arrAt_in 5 rfl _).trans ((A_eq m c 5).trans (V_args m c).2.2.2.2.2))⟩) (run_main m ρ)

end Cert.KernelIdeal.Hand

end
-- ==== Proof.KernelBlocks.lean ====
/-
  The windows' blocks as rows of their arrays.

  At grid point t = 8·i + j (i = t / 8 the row block, j = t mod 8 the column) windows 0 and 2 stage rows 1024·i … 1024·i + 1023
  of X_mean and X_var, windows 1 and 3 rows 1024·j … of the same two arrays, windows 4 and 5 rows 1024·j … of V_mean and V_var,
  and the output window rows 1024·i … of the result. So entry (p, k) of a block is entry (1024·i + p, k), or (1024·j + p, k),
  of the array.
-/
import proofs.«107588_j19954418057367_2_alg».proof.Proof.Gen.KernelIdeal.Launch
import proofs.«107588_j19954418057367_2_alg».proof.Proof.Gen.KernelIdeal.Skeleton
import proofs.«107588_j19954418057367_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import proofs.«107588_j19954418057367_2_alg».proof.Proof.FrameDataIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ)

/-- The printed index maps, decided over the grid: the row-block windows follow t / 8, the column windows t mod 8, and no
    window moves along the lanes. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val % 8 ∧ win0_3.index t (1 : Fin 2) = 0
    ∧ win0_4.index t (0 : Fin 2) = t.val % 8 ∧ win0_4.index t (1 : Fin 2) = 0
    ∧ win0_5.index t (0 : Fin 2) = t.val % 8 ∧ win0_5.index t (1 : Fin 2) = 0
    ∧ win0_6.index t (0 : Fin 2) = t.val / 8 ∧ win0_6.index t (1 : Fin 2) = 0 :=
  (by decide +kernel : ∀ t : Fin grid0.N, _)

/-- Window 0's block at point `t`, entry (p, k): row 1024·(t / 8) + p of its array. -/
theorem iblk0_apply (c : Dev nD) (t : Fin cfg0.N) (p : Fin 1024) (k : Fin 96) (h : 1024 * (t.val / 8) + p.val < 8192) :
    iblk m c 0 t (ix2 p k) = V m c main_v1 (ix2 ⟨1024 * (t.val / 8) + p.val, h⟩ k) := by
  have e := idx_facts t
  show V m c main_v1 (((cfg0.win 0).blk t).view.emb (ix2 p k)) = _
  refine congrArg _ ?_
  funext a; apply Fin.ext
  match a with
  | ⟨0, _⟩ => show win0_0.index t (0 : Fin 2) * 1024 + 1 * p.val = 1024 * (t.val / 8) + p.val; omega
  | ⟨1, _⟩ => show win0_0.index t (1 : Fin 2) * 96 + 1 * k.val = k.val; omega

/-- Window 1's block at point `t`, entry (p, k): row 1024·(t mod 8) + p of its array. -/
theorem iblk1_apply (c : Dev nD) (t : Fin cfg0.N) (p : Fin 1024) (k : Fin 96) (h : 1024 * (t.val % 8) + p.val < 8192) :
    iblk m c 1 t (ix2 p k) = V m c main_v1 (ix2 ⟨1024 * (t.val % 8) + p.val, h⟩ k) := by
  have e := idx_facts t
  show V m c main_v1 (((cfg0.win 1).blk t).view.emb (ix2 p k)) = _
  refine congrArg _ ?_
  funext a; apply Fin.ext
  match a with
  | ⟨0, _⟩ => show win0_1.index t (0 : Fin 2) * 1024 + 1 * p.val = 1024 * (t.val % 8) + p.val; omega
  | ⟨1, _⟩ => show win0_1.index t (1 : Fin 2) * 96 + 1 * k.val = k.val; omega

/-- Window 2's block at point `t`, entry (p, k): row 1024·(t / 8) + p of its array. -/
theorem iblk2_apply (c : Dev nD) (t : Fin cfg0.N) (p : Fin 1024) (k : Fin 160) (h : 1024 * (t.val / 8) + p.val < 8192) :
    iblk m c 2 t (ix2 p k) = V m c main_v5 (ix2 ⟨1024 * (t.val / 8) + p.val, h⟩ k) := by
  have e := idx_facts t
  show V m c main_v5 (((cfg0.win 2).blk t).view.emb (ix2 p k)) = _
  refine congrArg _ ?_
  funext a; apply Fin.ext
  match a with
  | ⟨0, _⟩ => show win0_2.index t (0 : Fin 2) * 1024 + 1 * p.val = 1024 * (t.val / 8) + p.val; omega
  | ⟨1, _⟩ => show win0_2.index t (1 : Fin 2) * 160 + 1 * k.val = k.val; omega

/-- Window 3's block at point `t`, entry (p, k): row 1024·(t mod 8) + p of its array. -/
theorem iblk3_apply (c : Dev nD) (t : Fin cfg0.N) (p : Fin 1024) (k : Fin 160) (h : 1024 * (t.val % 8) + p.val < 8192) :
    iblk m c 3 t (ix2 p k) = V m c main_v5 (ix2 ⟨1024 * (t.val % 8) + p.val, h⟩ k) := by
  have e := idx_facts t
  show V m c main_v5 (((cfg0.win 3).blk t).view.emb (ix2 p k)) = _
  refine congrArg _ ?_
  funext a; apply Fin.ext
  match a with
  | ⟨0, _⟩ => show win0_3.index t (0 : Fin 2) * 1024 + 1 * p.val = 1024 * (t.val % 8) + p.val; omega
  | ⟨1, _⟩ => show win0_3.index t (1 : Fin 2) * 160 + 1 * k.val = k.val; omega

/-- Window 4's block at point `t`, entry (p, k): row 1024·(t mod 8) + p of its array. -/
theorem iblk4_apply (c : Dev nD) (t : Fin cfg0.N) (p : Fin 1024) (k : Fin 64) (h : 1024 * (t.val % 8) + p.val < 8192) :
    iblk m c 4 t (ix2 p k) = V m c main_arg4 (ix2 ⟨1024 * (t.val % 8) + p.val, h⟩ k) := by
  have e := idx_facts t
  show V m c main_arg4 (((cfg0.win 4).blk t).view.emb (ix2 p k)) = _
  refine congrArg _ ?_
  funext a; apply Fin.ext
  match a with
  | ⟨0, _⟩ => show win0_4.index t (0 : Fin 2) * 1024 + 1 * p.val = 1024 * (t.val % 8) + p.val; omega
  | ⟨1, _⟩ => show win0_4.index t (1 : Fin 2) * 64 + 1 * k.val = k.val; omega

/-- Window 5's block at point `t`, entry (p, k): row 1024·(t mod 8) + p of its array. -/
theorem iblk5_apply (c : Dev nD) (t : Fin cfg0.N) (p : Fin 1024) (k : Fin 64) (h : 1024 * (t.val % 8) + p.val < 8192) :
    iblk m c 5 t (ix2 p k) = V m c main_arg5 (ix2 ⟨1024 * (t.val % 8) + p.val, h⟩ k) := by
  have e := idx_facts t
  show V m c main_arg5 (((cfg0.win 5).blk t).view.emb (ix2 p k)) = _
  refine congrArg _ ?_
  funext a; apply Fin.ext
  match a with
  | ⟨0, _⟩ => show win0_5.index t (0 : Fin 2) * 1024 + 1 * p.val = 1024 * (t.val % 8) + p.val; omega
  | ⟨1, _⟩ => show win0_5.index t (1 : Fin 2) * 64 + 1 * k.val = k.val; omega

end Cert.KernelIdeal.Hand

end
-- ==== Proof.Spec.lean ====
/-
  The function both programs compute, entry by entry, over the extended reals.

  From an array X of N rows, the Gaussian kernel matrix with scale d has entry (r, s)
      1 · exp( −max(|x_r|² + |x_s|² − 2·⟨x_r, x_s⟩, 0) / d ),
  where |x_r|² is the sum of the squares of row r and ⟨x_r, x_s⟩ the inner product of rows r and s.
  With X_mean of 96 lanes and X_var of 160 lanes, the result at row r and lane c is
      (Y_mean[r,c] + Y_var[r,c]) + Σ_s K₉₈(X_mean)[r,s] · V_mean[s,c] + Σ_s K₁₆₂(X_var)[r,s] · V_var[s,c].
-/
import Mathlib
import Idealize.ShloMosaic.PureOps.Ideal
import Idealize.ShloMosaic.Lib.ValueIdx

noncomputable section

open scoped BigOperators

namespace Cert.Spec

open Idealize.ShloMosaic Idealize.ShloMosaic.ValueIdx

/-- An array of R rows and C lanes of extended reals. -/
abbrev Arr (R C : Nat) : Type := (⟨2, ![R, C]⟩ : Shape).Idx → EReal

/-- The sum of the squares of row r. -/
def rowSq {R K : Nat} (X : Arr R K) (r : Fin R) : EReal := ∑ k : Fin K, X (ix2 r k) * X (ix2 r k)

/-- The inner product of rows r and s. -/
def rowDot {R K : Nat} (X : Arr R K) (r s : Fin R) : EReal := ∑ k : Fin K, X (ix2 r k) * X (ix2 s k)

/-- Entry (r, s) of the Gaussian kernel matrix of X with scale d: 1 · exp(−max(|x_r|² + |x_s|² − 2⟨x_r, x_s⟩, 0) / d). -/
def gauss {R K : Nat} (d : ℝ) (X : Arr R K) (r s : Fin R) : EReal :=
  (1 : EReal) * Ideal.exp (Ideal.div (-(max ((rowSq X r + rowSq X s) - (2 : EReal) * rowDot X r s) 0)) (d : EReal))

/-- The kernel matrix of X applied to V: entry (r, c) is Σ_s K_d(X)[r,s] · V[s,c]. -/
def smooth {R K C : Nat} (d : ℝ) (X : Arr R K) (V : Arr R C) (r : Fin R) (c : Fin C) : EReal :=
  ∑ s : Fin R, gauss d X r s * V (ix2 s c)

/-- The result at row r and lane c. -/
def result (Xm : Arr 8192 96) (Xv : Arr 8192 160) (ymean yvar vmean vvar : Arr 8192 64) (r : Fin 8192) (c : Fin 64) : EReal :=
  ((ymean (ix2 r c) + yvar (ix2 r c)) + smooth 98 Xm vmean r c) + smooth 162 Xv vvar r c

/-- The result as an array. -/
def resultArr (Xm : Arr 8192 96) (Xv : Arr 8192 160) (ymean yvar vmean vvar : Arr 8192 64) : Arr 8192 64 :=
  fun i => result Xm Xv ymean yvar vmean vvar (i 0) (i 1)

theorem resultArr_ix2 (Xm : Arr 8192 96) (Xv : Arr 8192 160) (ymean yvar vmean vvar : Arr 8192 64) (r : Fin 8192) (c : Fin 64) :
    resultArr Xm Xv ymean yvar vmean vvar (ix2 r c) = result Xm Xv ymean yvar vmean vvar r c := rfl

end Cert.Spec

end
-- ==== Proof.Consts.lean ====
/-
  The float constants of the two programs, as the extended reals they denote.

  A 32-bit pattern denotes (−1)^sign · 2^(exponent − 127) · (1 + fraction / 2^23). The reference spells 2, 98, 162, 1
  and 0 exactly, and 0.01 by the nearest pattern, which denotes some real number close to 1/100 (only that it is a
  real number is used). The kernel spells the four factors −1/98, −1/49, −1/162, −1/81 as NAMED constants: each
  denotes the rational its name is given in the certificate's table, not the dyadic its pattern denotes.
-/
import Mathlib
import Idealize.ShloMosaic.PureOps.Ideal
import Idealize.ShloMosaic.PureOps.Ideal.Laws
import Idealize.ShloMosaic.PureOps.IdealRules
import proofs.«107588_j19954418057367_2_alg».proof.KernelIdeal

noncomputable section

namespace Cert.RefSide

open Idealize.ShloMosaic

/-- The pattern of 2.0 denotes the real 2. -/
theorem ofBits_two : Ideal.ofBits .f32 0x40000000#32 = ((2 : ℝ) : EReal) := by
  simp [Ideal.ofBits, Ideal.ieee, -EReal.coe_mul]; norm_num

/-- The same, with 2 as a numeral of the extended reals. -/
theorem ofBits_two' : Ideal.ofBits .f32 0x40000000#32 = (2 : EReal) := by
  rw [ofBits_two]; norm_cast

/-- The pattern of 98.0 denotes the real 98. -/
theorem ofBits_98 : Ideal.ofBits .f32 0x42C40000#32 = ((98 : ℝ) : EReal) := by
  simp [Ideal.ofBits, Ideal.ieee, -EReal.coe_mul]; norm_num

/-- The pattern of 162.0 denotes the real 162. -/
theorem ofBits_162 : Ideal.ofBits .f32 0x43220000#32 = ((162 : ℝ) : EReal) := by
  simp [Ideal.ofBits, Ideal.ieee, -EReal.coe_mul]; norm_num

/-- The pattern of 1.0 denotes 1. -/
theorem ofBits_one : Ideal.ofBits .f32 0x3F800000#32 = (1 : EReal) := by
  simp [Ideal.ofBits, Ideal.ieee, -EReal.coe_mul]; norm_num

/-- The pattern of +0.0 denotes 0. -/
theorem ofBits_zero : Ideal.ofBits .f32 0x00000000#32 = (0 : EReal) := Ideal.ofBits_zero_f32

/-- The pattern nearest to 0.01 denotes a real number. -/
theorem ofBits_hundredth : ∃ a : ℝ, Ideal.ofBits .f32 0x3C23D70A#32 = (a : EReal) := by
  refine ⟨(10737418 : ℝ) * (2 : ℝ) ^ (-30 : ℤ), ?_⟩
  simp [Ideal.ofBits, Ideal.ieee, -EReal.coe_mul]

/-- The kernel's named factor −1/98. -/
theorem named_neg_inv_98 :
    Named.named (F := Ideal) Cert.KernelIdeal.κ "neg_inv_98" (φ := .f32) 0xBC272F05#32 = ((-1 / 98 : ℝ) : EReal) :=
  IdealRules.named_const.ideal_named_scalar _ _ _ _ rfl

/-- The kernel's named factor −1/49. -/
theorem named_neg_inv_49 :
    Named.named (F := Ideal) Cert.KernelIdeal.κ "neg_inv_49" (φ := .f32) 0xBCA72F05#32 = ((-1 / 49 : ℝ) : EReal) :=
  IdealRules.named_const.ideal_named_scalar _ _ _ _ rfl

/-- The kernel's named factor −1/162. -/
theorem named_neg_inv_162 :
    Named.named (F := Ideal) Cert.KernelIdeal.κ "neg_inv_162" (φ := .f32) 0xBBCA4588#32 = ((-1 / 162 : ℝ) : EReal) :=
  IdealRules.named_const.ideal_named_scalar _ _ _ _ rfl

/-- The kernel's named factor −1/81. -/
theorem named_neg_inv_81 :
    Named.named (F := Ideal) Cert.KernelIdeal.κ "neg_inv_81" (φ := .f32) 0xBC4A4588#32 = ((-1 / 81 : ℝ) : EReal) :=
  IdealRules.named_const.ideal_named_scalar _ _ _ _ rfl

end Cert.RefSide

end
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.LibFiniteAll.lean ====
/-
  An array every entry of which passes the test |x| < +∞ consists of real numbers.

  On the extended reals the absolute value is max x (−x), the pattern 0x7F800000 of the 32-bit format denotes
  +∞, and the comparison "less than" is the order's. An extended real x with max x (−x) < +∞ is neither +∞ nor
  −∞ (at either infinity the maximum is +∞), so it is a real number. A conjunction over a whole array of such
  tests, computed as a reduction by "and" from the constant 1 down to a single word, equals 1 only if every
  test does; hence every entry of the array is a real number.
-/
import Mathlib
import Idealize.ShloMosaic.PureOps.Ideal
import Idealize.ShloMosaic.PureOps.Ideal.Laws
import Idealize.ShloMosaic.Lib.ReduceAll
import Idealize.ShloMosaic.Lib.ValueIdx
import proofs.«107588_j19954418057367_2_alg».proof.Proof.LibRealSum

noncomputable section

open Idealize.ShloMosaic
open Cert.LibRealSum

namespace Cert.Lib.FiniteAll

/-- The pattern of the positive infinity denotes +∞. -/
theorem ofBits_inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => simp at h
  | coe a => exact ⟨a, rfl⟩
  | top => simp at h

/-- The same, with the test as the comparison word it is computed as. -/
theorem isReal_of_cmp (x : EReal)
    (h : Ideal.cmp .olt (max x (-x)) (Ideal.ofBits .f32 0x7F800000#32) = 1#1) : IsReal x := by
  rw [ofBits_inf_f32] at h
  refine isReal_of_abs_lt_top x ?_
  by_contra hn
  simp [Ideal.cmp, hn] at h

/-- The shape with no axes has one index. -/
instance subsingleton_scalarIdx : Subsingleton (⟨0, ![]⟩ : Shape).Idx := ⟨fun a b => funext fun d => d.elim0⟩

/-- If the conjunction over the whole array of the tests |x i| < +∞ is 1, every entry is a real number. -/
theorem all_real {s : Shape} {axes : List (Fin s.rank)} (x : FVec Ideal s .f32) (init : IVec ⟨0, ![]⟩ 1)
    (hr : s.ReducesTo axes ⟨0, ![]⟩) (hu : 0 < (⟨0, ![]⟩ : Shape).numel)
    (hb : (⟨0, ![]⟩ : Shape).BroadcastsInDim s (![] : Fin 0 → Fin s.rank))
    (e : Host.reduce IntOp.andi
          (cmpf .olt (Host.absf x) (broadcastInDim s ![] hb (constant (F := Ideal) ⟨0, ![]⟩ .f32 0x7F800000#32)))
          init hr hu ValueIdx.ix0 = 1#1)
    (i : s.Idx) : IsReal (x i) := by
  have h := Host.reduce_andi_all _ init hr hu ValueIdx.ix0 e i
  exact isReal_of_cmp (x i) h

end Cert.Lib.FiniteAll

end
-- ==== Proof.LibConcat2.lean ====
/-
  Two arrays [R, n₁] and [R, n₂] laid side by side along the lanes, read at an index.

  The concatenation along axis 1 is an [R, n₁ + n₂] array. Its entry in row r at one of the first n₁ lanes is the first
  piece's entry in that row and lane; at lane n₁ + q it is the second piece's entry in row r, lane q. So a row of the
  concatenation is the first piece's row followed by the second piece's row.
-/
import Idealize.ShloMosaic.Lib.Pipeline.Value
import Idealize.ShloMosaic.Lib.ValueIdx

namespace Cert.LibConcat2

open Idealize.ShloMosaic Idealize.ShloMosaic.ValueIdx

variable {α : Type} {R n₁ n₂ w : Nat}

/-- Off the joined axis a piece's coordinates are the result's. -/
private theorem off_axis {n : Nat} (r : Fin R) (l : Fin w) (i : (⟨2, ![R, n]⟩ : Shape).Idx) (hi : (i 0).val = r.val) :
    ∀ bb : Fin (⟨2, ![R, n]⟩ : Shape).rank, bb.cast (rfl : (⟨2, ![R, n]⟩ : Shape).rank = (⟨2, ![R, w]⟩ : Shape).rank) ≠ (1 : Fin 2) →
      (i bb).val = ((ix2 r l : (⟨2, ![R, w]⟩ : Shape).Idx) (bb.cast rfl)).val := by
  intro bb hbb
  match bb with
  | ⟨0, _⟩ => exact hi
  | ⟨1, _⟩ => exact absurd rfl hbb

/-- A lane of the first piece. -/
theorem concatenate2_left (a : (⟨2, ![R, n₁]⟩ : Shape).Idx → α) (b : (⟨2, ![R, n₂]⟩ : Shape).Idx → α)
    (h : Shape.Concatenates ([(⟨⟨2, ![R, n₁]⟩, a⟩ : (s : Shape) × (s.Idx → α)), ⟨⟨2, ![R, n₂]⟩, b⟩].map (·.1))
      ⟨2, ![R, w]⟩ (1 : Fin 2))
    (r : Fin R) (l : Fin w) (q : Fin n₁) (hl : l.val = q.val) :
    concatenate ⟨2, ![R, w]⟩ (1 : Fin 2) [⟨⟨2, ![R, n₁]⟩, a⟩, ⟨⟨2, ![R, n₂]⟩, b⟩] h (ix2 r l) = a (ix2 r q) :=
  concatenate_apply_piece (1 : Fin 2) _ h (ix2 r l) 0 (by simp) ⟨2, ![R, n₁]⟩ a rfl rfl 0 rfl
    (ix2 r q) (off_axis r l _ rfl) (by show 0 + q.val = l.val; omega)

/-- A lane of the second piece. -/
theorem concatenate2_right (a : (⟨2, ![R, n₁]⟩ : Shape).Idx → α) (b : (⟨2, ![R, n₂]⟩ : Shape).Idx → α)
    (h : Shape.Concatenates ([(⟨⟨2, ![R, n₁]⟩, a⟩ : (s : Shape) × (s.Idx → α)), ⟨⟨2, ![R, n₂]⟩, b⟩].map (·.1))
      ⟨2, ![R, w]⟩ (1 : Fin 2))
    (r : Fin R) (l : Fin w) (q : Fin n₂) (hl : l.val = n₁ + q.val) :
    concatenate ⟨2, ![R, w]⟩ (1 : Fin 2) [⟨⟨2, ![R, n₁]⟩, a⟩, ⟨⟨2, ![R, n₂]⟩, b⟩] h (ix2 r l) = b (ix2 r q) :=
  concatenate_apply_piece (1 : Fin 2) _ h (ix2 r l) 1 (by simp) ⟨2, ![R, n₂]⟩ b rfl rfl n₁ (by simp)
    (ix2 r q) (off_axis r l _ rfl) (by show n₁ + q.val = l.val; omega)

end Cert.LibConcat2
-- ==== Proof.LibConcatLanes3.lean ====
/-
  Three arrays [R, n0], [R, n1], [R, n2] laid side by side along the lanes, read at an index.

  The concatenation along axis 1 is an [R, w] array with w = n0 + n1 + n2. Its entry in row r and lane l comes from the
  piece whose span of lanes holds l: the first at lane l when l < n0, the second at lane l - n0 when n0 ≤ l < n0 + n1,
  the third at lane l - (n0 + n1) otherwise; the row is the same in every case.
-/
import Idealize.ShloMosaic.Lib.Pipeline.Value
import Idealize.ShloMosaic.Lib.ValueIdx

namespace Cert.LibConcatLanes3

open Idealize.ShloMosaic Idealize.ShloMosaic.ValueIdx

/-- Row `r`, lane `l` of three arrays laid side by side: the piece whose lanes hold `l`, at `l` less the lanes of the
    pieces before it. -/
def lanes3 {α : Type} {R n0 n1 n2 w : Nat} (hw : w = n0 + n1 + n2)
    (a : (⟨2, ![R, n0]⟩ : Shape).Idx → α) (b : (⟨2, ![R, n1]⟩ : Shape).Idx → α) (c : (⟨2, ![R, n2]⟩ : Shape).Idx → α)
    (r : Fin R) (l : Fin w) : α :=
  if h0 : l.val < n0 then a (ix2 r ⟨l.val, h0⟩)
  else if h1 : l.val < n0 + n1 then b (ix2 r ⟨l.val - n0, by omega⟩)
  else c (ix2 r ⟨l.val - (n0 + n1), by have := l.isLt; omega⟩)

/-- **The concatenation of three arrays along the lanes, read at row `r` and lane `l`**, is `lanes3`. -/
theorem concatenate3_lanes_apply {α : Type} {R n0 n1 n2 w : Nat} (hw : w = n0 + n1 + n2)
    (a : (⟨2, ![R, n0]⟩ : Shape).Idx → α) (b : (⟨2, ![R, n1]⟩ : Shape).Idx → α) (c : (⟨2, ![R, n2]⟩ : Shape).Idx → α)
    (h : Shape.Concatenates ([(⟨⟨2, ![R, n0]⟩, a⟩ : (s : Shape) × (s.Idx → α)), ⟨⟨2, ![R, n1]⟩, b⟩, ⟨⟨2, ![R, n2]⟩, c⟩].map (·.1))
      ⟨2, ![R, w]⟩ (1 : Fin 2))
    (r : Fin R) (l : Fin w) :
    concatenate ⟨2, ![R, w]⟩ (1 : Fin 2) [⟨⟨2, ![R, n0]⟩, a⟩, ⟨⟨2, ![R, n1]⟩, b⟩, ⟨⟨2, ![R, n2]⟩, c⟩] h (ix2 r l)
      = lanes3 hw a b c r l := by
  unfold lanes3
  have hoff : ∀ {n : Nat} (i : (⟨2, ![R, n]⟩ : Shape).Idx), (i 0).val = r.val →
      ∀ bb : Fin (⟨2, ![R, n]⟩ : Shape).rank, bb.cast (rfl : (⟨2, ![R, n]⟩ : Shape).rank = (⟨2, ![R, w]⟩ : Shape).rank) ≠ (1 : Fin 2) →
        (i bb).val = ((ix2 r l : (⟨2, ![R, w]⟩ : Shape).Idx) (bb.cast rfl)).val := by
    intro n i hi bb hbb
    match bb with
    | ⟨0, _⟩ => exact hi
    | ⟨1, _⟩ => exact absurd rfl hbb
  by_cases h0 : l.val < n0
  · rw [dif_pos h0]
    exact concatenate_apply_piece (1 : Fin 2) _ h (ix2 r l) 0 (by simp) ⟨2, ![R, n0]⟩ a rfl rfl 0 rfl
      (ix2 r ⟨l.val, h0⟩) (hoff _ rfl) (by show 0 + l.val = l.val; omega)
  · rw [dif_neg h0]
    by_cases h1 : l.val < n0 + n1
    · rw [dif_pos h1]
      exact concatenate_apply_piece (1 : Fin 2) _ h (ix2 r l) 1 (by simp) ⟨2, ![R, n1]⟩ b rfl rfl n0 (by simp)
        (ix2 r ⟨l.val - n0, by omega⟩) (hoff _ rfl) (by show n0 + (l.val - n0) = l.val; omega)
    · rw [dif_neg h1]
      exact concatenate_apply_piece (1 : Fin 2) _ h (ix2 r l) 2 (by simp) ⟨2, ![R, n2]⟩ c rfl rfl (n0 + n1) (by simp)
        (ix2 r ⟨l.val - (n0 + n1), by have := l.isLt; omega⟩) (hoff _ rfl)
        (by show n0 + n1 + (l.val - (n0 + n1)) = l.val; omega)

end Cert.LibConcatLanes3
-- ==== Proof.HostArrays.lean ====
/-
  The two arrays of features both programs build from the inputs before anything else, and their finiteness.

  X_mean is X_mu [8192, 32] followed along the lanes by Y_mean + Y_var [8192, 64]: 96 lanes.
  X_var is X_mu, then 0.01 · (Y_eta with its rows in reverse order) [8192, 64], then Y_mean + Y_var: 160 lanes.
  Under the precondition every entry of the six inputs is a real number; sums and products of real numbers are real
  numbers and a reversal only moves entries, so every entry of X_mean and of X_var is a real number too.
-/
import Mathlib
import Idealize.ShloMosaic.PureOps.Ideal
import Idealize.ShloMosaic.Lib.ValueIdx
import Idealize.ShloMosaic.PureOps.Ideal.Laws
import Idealize.ShloMosaic.Lib.ReduceAll
import Idealize.ShloMosaic.Lib.Affine
import proofs.«107588_j19954418057367_2_alg».proof.Pre_finite_inputs
import proofs.«107588_j19954418057367_2_alg».proof.Proof.Gen.Pre_finite_inputs
import proofs.«107588_j19954418057367_2_alg».proof.Proof.Gen.ReferenceIdeal.Read
import proofs.«107588_j19954418057367_2_alg».proof.Proof.Spec
import proofs.«107588_j19954418057367_2_alg».proof.Proof.Consts
import proofs.«107588_j19954418057367_2_alg».proof.Proof.LibRealSum
import proofs.«107588_j19954418057367_2_alg».proof.Proof.LibFiniteAll
import proofs.«107588_j19954418057367_2_alg».proof.Proof.LibConcat2
import proofs.«107588_j19954418057367_2_alg».proof.Proof.LibConcatLanes3

noncomputable section

namespace Cert.RefSide

open Idealize.ShloMosaic Idealize.ShloMosaic.ValueIdx
open Cert.ReferenceIdeal Cert.ReferenceIdeal.Gen

/-- X_mean: X_mu followed along the lanes by Y_mean + Y_var. -/
def Xm (x0 : FVec Ideal S8192x32 .f32) (x2 x3 : FVec Ideal S8192x64 .f32) : Cert.Spec.Arr 8192 96 :=
  Cert.ReferenceIdeal.Read.val_main_v1 (F := Ideal) x0 x2 x3

/-- X_var: X_mu, then 0.01 times the row-reversed Y_eta, then Y_mean + Y_var. -/
def Xv (x0 : FVec Ideal S8192x32 .f32) (x1 x2 x3 : FVec Ideal S8192x64 .f32) : Cert.Spec.Arr 8192 160 :=
  Cert.ReferenceIdeal.Read.val_main_v5 (F := Ideal) x0 x1 x2 x3

open Cert.LibRealSum

/-- Under the precondition every entry of each of the six inputs is a real number. -/
theorem xs_real (x0 : FVec Ideal S8192x32 .f32) (x1 x2 x3 x4 x5 : FVec Ideal S8192x64 .f32)
    (h : Cert.Pre_finite_inputs.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧
      (∀ i, IsReal (x4 i)) ∧ (∀ i, IsReal (x5 i)) := by
  -- the precondition is the conjunction of six whole-array tests |x| < +∞
  have h0 := congrFun h ValueIdx.ix0
  dsimp only [Cert.Pre_finite_inputs.fn, Cert.Pre_finite_inputs.fn_part1, Idealize.ShloMosaic.andi] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨Cert.Lib.FiniteAll.all_real x0 _ _ _ _ e0, Cert.Lib.FiniteAll.all_real x1 _ _ _ _ e1,
    Cert.Lib.FiniteAll.all_real x2 _ _ _ _ e2, Cert.Lib.FiniteAll.all_real x3 _ _ _ _ e3,
    Cert.Lib.FiniteAll.all_real x4 _ _ _ _ e4, Cert.Lib.FiniteAll.all_real x5 _ _ _ _ e5⟩

/-- Y_mean + Y_var has real entries when Y_mean and Y_var do. -/
theorem v0_real (x2 x3 : FVec Ideal S8192x64 .f32) (h2 : ∀ i, IsReal (x2 i)) (h3 : ∀ i, IsReal (x3 i))
    (j : S8192x64.Idx) : IsReal (Read.val_main_v0 (F := Ideal) x2 x3 j) := by
  rw [Read.val_main_v0_apply, Ideal.addf_def]
  exact (h2 j).add (h3 j)

/-- 0.01 times the row-reversed Y_eta has real entries when Y_eta does: an entry of the reversed array is an entry
    of Y_eta, and the pattern of 0.01 denotes a real number. -/
theorem v4_real (x1 : FVec Ideal S8192x64 .f32) (h1 : ∀ i, IsReal (x1 i)) (j : S8192x64.Idx) :
    IsReal (Read.val_main_v4 (F := Ideal) x1 j) := by
  rw [Read.val_main_v4_apply, Read.val_main_v3_apply, Read.val_main_cst_apply, Ideal.mulf_def, Ideal.ofBits_def]
  exact IsReal.mul ofBits_hundredth (h1 _)

/-- Row r of X_mean at one of its first 32 lanes is X_mu's entry. -/
theorem Xm_left (x0 : FVec Ideal S8192x32 .f32) (x2 x3 : FVec Ideal S8192x64 .f32) (r : Fin 8192) (l : Fin 96)
    (q : Fin 32) (hl : l.val = q.val) : Xm x0 x2 x3 (ix2 r l) = x0 (ix2 r q) :=
  Cert.LibConcat2.concatenate2_left (R := 8192) (n₁ := 32) (n₂ := 64) (w := 96) x0
    (Read.val_main_v0 (F := Ideal) x2 x3) concatenates_S8192x32_S8192x64_S8192x96_d1 r l q hl

/-- Row r of X_mean at lane 32 + q is (Y_mean + Y_var)'s entry at lane q. -/
theorem Xm_right (x0 : FVec Ideal S8192x32 .f32) (x2 x3 : FVec Ideal S8192x64 .f32) (r : Fin 8192) (l : Fin 96)
    (q : Fin 64) (hl : l.val = 32 + q.val) : Xm x0 x2 x3 (ix2 r l) = Read.val_main_v0 (F := Ideal) x2 x3 (ix2 r q) :=
  Cert.LibConcat2.concatenate2_right (R := 8192) (n₁ := 32) (n₂ := 64) (w := 96) x0
    (Read.val_main_v0 (F := Ideal) x2 x3) concatenates_S8192x32_S8192x64_S8192x96_d1 r l q hl

/-- Row r of X_mean at lane 32 + q is Y_mean[r, q] + Y_var[r, q]. -/
theorem Xm_tail (x0 : FVec Ideal S8192x32 .f32) (x2 x3 : FVec Ideal S8192x64 .f32) (r : Fin 8192) (q : Fin 64) :
    Xm x0 x2 x3 (ix2 r ⟨32 + q.val, by omega⟩) = x2 (ix2 r q) + x3 (ix2 r q) := by
  rw [Xm_right x0 x2 x3 r ⟨32 + q.val, by omega⟩ q rfl, Read.val_main_v0_apply, Ideal.addf_def]

/-- Every entry of X_mean is a real number when the inputs' entries are. -/
theorem Xm_real (x0 : FVec Ideal S8192x32 .f32) (x2 x3 : FVec Ideal S8192x64 .f32)
    (h0 : ∀ i, IsReal (x0 i)) (h2 : ∀ i, IsReal (x2 i)) (h3 : ∀ i, IsReal (x3 i))
    (i : (⟨2, ![8192, 96]⟩ : Shape).Idx) : IsReal (Xm x0 x2 x3 i) := by
  obtain ⟨r, l, rfl⟩ : ∃ (r : Fin 8192) (l : Fin 96), i = ix2 r l := ⟨i 0, i 1, eq_ix2 i⟩
  by_cases hl : l.val < 32
  · rw [Xm_left x0 x2 x3 r l ⟨l.val, hl⟩ rfl]
    exact h0 _
  · rw [Xm_right x0 x2 x3 r l ⟨l.val - 32, by have := l.isLt; omega⟩ (by show l.val = 32 + (l.val - 32); omega)]
    exact v0_real x2 x3 h2 h3 _

/-- Row r, lane l of X_var: X_mu below lane 32, then 0.01 times the reversed Y_eta, then Y_mean + Y_var. -/
theorem Xv_lanes (x0 : FVec Ideal S8192x32 .f32) (x1 x2 x3 : FVec Ideal S8192x64 .f32) (r : Fin 8192) (l : Fin 160) :
    Xv x0 x1 x2 x3 (ix2 r l) = Cert.LibConcatLanes3.lanes3 (R := 8192) (n0 := 32) (n1 := 64) (n2 := 64) (w := 160) rfl x0
      (Read.val_main_v4 (F := Ideal) x1) (Read.val_main_v0 (F := Ideal) x2 x3) r l :=
  Cert.LibConcatLanes3.concatenate3_lanes_apply (R := 8192) (n0 := 32) (n1 := 64) (n2 := 64) (w := 160) rfl x0
    (Read.val_main_v4 (F := Ideal) x1) (Read.val_main_v0 (F := Ideal) x2 x3)
    concatenates_S8192x32_S8192x64_S8192x64_S8192x160_d1 r l

/-- Every entry of X_var is a real number when the inputs' entries are. -/
theorem Xv_real (x0 : FVec Ideal S8192x32 .f32) (x1 x2 x3 : FVec Ideal S8192x64 .f32)
    (h0 : ∀ i, IsReal (x0 i)) (h1 : ∀ i, IsReal (x1 i)) (h2 : ∀ i, IsReal (x2 i)) (h3 : ∀ i, IsReal (x3 i))
    (i : (⟨2, ![8192, 160]⟩ : Shape).Idx) : IsReal (Xv x0 x1 x2 x3 i) := by
  obtain ⟨r, l, rfl⟩ : ∃ (r : Fin 8192) (l : Fin 160), i = ix2 r l := ⟨i 0, i 1, eq_ix2 i⟩
  rw [Xv_lanes]
  unfold Cert.LibConcatLanes3.lanes3
  split_ifs
  · exact h0 _
  · exact v4_real x1 h1 _
  · exact v0_real x2 x3 h2 h3 _

end Cert.RefSide

end
-- ==== Proof.KernelEntry.lean ====
/-
  What the region finds in X_mean's and X_var's buffers: the host operations' results.

  Before the region the program forms X_mean as the concatenation of X_mu with Y_mean + Y_var, and X_var as the
  concatenation of X_mu, 0.01 times Y_eta with its rows reversed, and Y_mean + Y_var. These are the same two terms of the
  argument arrays that the reference forms, so both sides may carry them as the same arrays.
-/
import proofs.«107588_j19954418057367_2_alg».proof.Proof.Gen.KernelIdeal.Launch
import proofs.«107588_j19954418057367_2_alg».proof.Proof.Gen.KernelIdeal.Skeleton
import proofs.«107588_j19954418057367_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import Idealize.ShloMosaic.Lib.StableHlo.Run
import proofs.«107588_j19954418057367_2_alg».proof.Proof.FrameDataIdeal
import proofs.«107588_j19954418057367_2_alg».proof.Proof.HostArrays
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt Ideal) ℓ)

/-- X_mean as the region finds it. -/
theorem V_v1 (c : Dev nD) :
    (V m c main_v1 : Cert.Spec.Arr 8192 96)
      = Cert.RefSide.Xm (m ((c.tc : Thread nD τ).loc main_arg0)) (m ((c.tc : Thread nD τ).loc main_arg2)) (m ((c.tc : Thread nD τ).loc main_arg3)) := by
  dsimp only [V, V0]
  simp only [hostOps0, hostOps0_1, hostOps0_2, List.flatten_cons, List.flatten_nil, List.append_nil, List.cons_append, List.nil_append]
  after_results
  rfl

/-- X_var as the region finds it. -/
theorem V_v5 (c : Dev nD) :
    (V m c main_v5 : Cert.Spec.Arr 8192 160)
      = Cert.RefSide.Xv (m ((c.tc : Thread nD τ).loc main_arg0)) (m ((c.tc : Thread nD τ).loc main_arg1)) (m ((c.tc : Thread nD τ).loc main_arg2)) (m ((c.tc : Thread nD τ).loc main_arg3)) := by
  dsimp only [V, V0]
  simp only [hostOps0, hostOps0_1, hostOps0_2, List.flatten_cons, List.flatten_nil, List.append_nil, List.cons_append, List.nil_append]
  after_results
  rfl

end Cert.KernelIdeal.Hand

end
-- ==== Proof.TileLaw.lean ====
/-
  The law that joins the two arrangements of one entry of the Gaussian kernel matrix.

  Write A = |x_r|², B = |x_s|², C = ⟨x_r, x_s⟩ and let d > 0.  One arrangement scales first and clamps after:
      exp( min( (c·A + c·B) − c₂·C , 0 ) ) · 1        with c = −1/d and c₂ = −2/d ;
  the other clamps first and divides after:
      1 · exp( −max( (A + B) − 2·C , 0 ) / d ) .
  For REAL A, B, C both exponents are the same real number: with s = A + B − 2C,
      (−1/d)·A + (−1/d)·B − (−2/d)·C = −s/d      and      min(−s/d, 0) = −max(s, 0)/d      (d > 0).
  Over the extended reals in general the scaling does not distribute over the sum, so the entries are required to be real.
-/
import Mathlib
import Idealize.ShloMosaic.PureOps.Ideal
import proofs.«107588_j19954418057367_2_alg».proof.Proof.Spec
import proofs.«107588_j19954418057367_2_alg».proof.Proof.LibRealSum

noncomputable section

open scoped BigOperators

namespace Cert.TileLaw

open Idealize.ShloMosaic Idealize.ShloMosaic.ValueIdx Cert.Spec Cert.LibRealSum

/-- The coercion of the smaller of two reals is the smaller of the coercions (the coercion is monotone). -/
theorem coe_min (x y : ℝ) : ((min x y : ℝ) : EReal) = min (x : EReal) (y : EReal) :=
  EReal.coe_strictMono.monotone.map_min

/-- The coercion of the larger of two reals is the larger of the coercions. -/
theorem coe_max (x y : ℝ) : ((max x y : ℝ) : EReal) = max (x : EReal) (y : EReal) :=
  EReal.coe_strictMono.monotone.map_max

/-- In ℝ: scaling by −1/d (d > 0) turns the clamp from below at 0 into the clamp from above at 0. -/
theorem real_exponent (d a b c : ℝ) (hd : 0 < d) :
    min (((-1 / d) * a + (-1 / d) * b) - (-2 / d) * c) 0 = -(max ((a + b) - 2 * c) 0) * (1 / d) := by
  have hd' : d ≠ 0 := ne_of_gt hd
  have e : ((-1 / d) * a + (-1 / d) * b) - (-2 / d) * c = -((a + b) - 2 * c) * (1 / d) := by
    field_simp
    ring
  rw [e]
  have hpos : 0 < 1 / d := one_div_pos.mpr hd
  rcases le_total ((a + b) - 2 * c) 0 with h | h
  · rw [max_eq_right h, neg_zero, zero_mul]
    exact min_eq_right (mul_nonneg (neg_nonneg.mpr h) hpos.le)
  · rw [max_eq_left h]
    exact min_eq_left (mul_nonpos_of_nonpos_of_nonneg (neg_nonpos.mpr h) hpos.le)

/-- The two arrangements agree when A, B, C are real numbers. -/
theorem kernel_form_real (d a b c : ℝ) (hd : 0 < d) :
    Ideal.exp (min (((((-1 / d : ℝ) : EReal) * (a : EReal) + ((-1 / d : ℝ) : EReal) * (b : EReal))) -
        ((-2 / d : ℝ) : EReal) * (c : EReal)) 0) * 1
      = (1 : EReal) * Ideal.exp (Ideal.div (-(max (((a : EReal) + (b : EReal)) - (2 : EReal) * (c : EReal)) 0)) (d : EReal)) := by
  have h2 : (2 : EReal) = ((2 : ℝ) : EReal) := by norm_cast
  have hL : min (((((-1 / d : ℝ) : EReal) * (a : EReal) + ((-1 / d : ℝ) : EReal) * (b : EReal))) -
        ((-2 / d : ℝ) : EReal) * (c : EReal)) 0
      = ((min (((-1 / d) * a + (-1 / d) * b) - (-2 / d) * c) 0 : ℝ) : EReal) := by
    rw [coe_min, EReal.coe_sub, EReal.coe_add, EReal.coe_mul, EReal.coe_mul, EReal.coe_mul, EReal.coe_zero]
  have hR : Ideal.div (-(max (((a : EReal) + (b : EReal)) - (2 : EReal) * (c : EReal)) 0)) (d : EReal)
      = ((-(max ((a + b) - 2 * c) 0) * (1 / d) : ℝ) : EReal) := by
    rw [Ideal.div_coe (ne_of_gt hd), h2, EReal.coe_mul, EReal.coe_neg, coe_max, EReal.coe_sub, EReal.coe_add,
      EReal.coe_mul, EReal.coe_zero]
  rw [hL, hR, real_exponent d a b c hd, mul_one, one_mul]

/-- The sum of the squares of a row of real entries is a real number. -/
theorem rowSq_real {R K : Nat} (X : Arr R K) (hX : ∀ i, IsReal (X i)) (r : Fin R) : IsReal (rowSq X r) :=
  isReal_sum _ _ fun k _ => (hX (ix2 r k)).mul (hX (ix2 r k))

/-- The inner product of two rows of real entries is a real number. -/
theorem rowDot_real {R K : Nat} (X : Arr R K) (hX : ∀ i, IsReal (X i)) (r s : Fin R) : IsReal (rowDot X r s) :=
  isReal_sum _ _ fun k _ => (hX (ix2 r k)).mul (hX (ix2 s k))

/-- THE LAW: the scaled-then-clamped arrangement is the Gaussian kernel entry, for real entries and d > 0. -/
theorem kernel_form_eq_gauss {R K : Nat} (d : ℝ) (hd : 0 < d) (X : Arr R K) (hX : ∀ i, IsReal (X i)) (r s : Fin R) :
    Ideal.exp (min (((((-1 / d : ℝ) : EReal) * rowSq X r + ((-1 / d : ℝ) : EReal) * rowSq X s)) -
        ((-2 / d : ℝ) : EReal) * rowDot X r s) 0) * 1 = gauss d X r s := by
  obtain ⟨a, ha⟩ := rowSq_real X hX r
  obtain ⟨b, hb⟩ := rowSq_real X hX s
  obtain ⟨c, hc⟩ := rowDot_real X hX r s
  rw [gauss, ha, hb, hc]
  exact kernel_form_real d a b c hd

/-- At scale 98 the constants are −1/98 and −1/49. -/
theorem kernel_form_eq_gauss_98 {R K : Nat} (X : Arr R K) (hX : ∀ i, IsReal (X i)) (r s : Fin R) :
    Ideal.exp (min (((((-1 / 98 : ℝ) : EReal) * rowSq X r + ((-1 / 98 : ℝ) : EReal) * rowSq X s)) -
        ((-1 / 49 : ℝ) : EReal) * rowDot X r s) 0) * 1 = gauss 98 X r s := by
  have h := kernel_form_eq_gauss 98 (by norm_num) X hX r s
  have e : (-2 / 98 : ℝ) = -1 / 49 := by norm_num
  rwa [e] at h

/-- At scale 162 the constants are −1/162 and −1/81. -/
theorem kernel_form_eq_gauss_162 {R K : Nat} (X : Arr R K) (hX : ∀ i, IsReal (X i)) (r s : Fin R) :
    Ideal.exp (min (((((-1 / 162 : ℝ) : EReal) * rowSq X r + ((-1 / 162 : ℝ) : EReal) * rowSq X s)) -
        ((-1 / 81 : ℝ) : EReal) * rowDot X r s) 0) * 1 = gauss 162 X r s := by
  have h := kernel_form_eq_gauss 162 (by norm_num) X hX r s
  have e : (-2 / 162 : ℝ) = -1 / 81 := by norm_num
  rwa [e] at h

/-- An entry of the Gaussian kernel matrix of real entries is a real number (the exponential of a real is real). -/
theorem gauss_real {R K : Nat} (d : ℝ) (hd : d ≠ 0) (X : Arr R K) (hX : ∀ i, IsReal (X i)) (r s : Fin R) :
    IsReal (gauss d X r s) := by
  obtain ⟨a, ha⟩ := rowSq_real X hX r
  obtain ⟨b, hb⟩ := rowSq_real X hX s
  obtain ⟨c, hc⟩ := rowDot_real X hX r s
  have h2 : (2 : EReal) = ((2 : ℝ) : EReal) := by norm_cast
  have hR : Ideal.div (-(max (((a : EReal) + (b : EReal)) - (2 : EReal) * (c : EReal)) 0)) (d : EReal)
      = ((-(max ((a + b) - 2 * c) 0) * (1 / d) : ℝ) : EReal) := by
    rw [Ideal.div_coe hd, h2, EReal.coe_mul, EReal.coe_neg, coe_max, EReal.coe_sub, EReal.coe_add,
      EReal.coe_mul, EReal.coe_zero]
  rw [gauss, ha, hb, hc, hR, Ideal.exp_coe]
  exact isReal_one.mul (isReal_coe _)

end Cert.TileLaw

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibDotForms.lean ====
/-
  Two matrix products of a kernel read entry by entry over the extended reals, whatever precision the product asks for.

  Over the extended reals a product's precision attribute changes nothing. For a left operand [M, K]:
    * against a right operand [K, N] contracted on its first axis, entry (p, q) of the product accumulated into the
      zero splat is the sum over k of x[p, k] · w[k, q]                                   (`matmul_plain_prec`);
    * against a right operand [N, K] contracted on its last axis (a product with the transpose, no transpose
      materialised), entry (p, q) is the sum over k of x[p, k] · w[q, k]                   (`matmul_transposed_prec`).
  Only `0 + s = s` and a re-indexing of the sum are used: nothing here needs finiteness.
-/
import Idealize.ShloMosaic.Lib.ValueIdx
import Idealize.ShloMosaic.PureOps.Ideal.Laws
import proofs.«107588_j19954418057367_2_alg».proof.Proof.LibDotRows

noncomputable section

namespace Cert.LibDotForms

open Idealize.ShloMosaic Idealize.ShloMosaic.ValueIdx

variable {M K N : Nat} {φ₁ φ₂ : FTy}

/-- Entry (p, q) of a kernel's product x · w into the zero splat, at any precision. -/
theorem matmul_plain_prec (prec : Option ContractPrecision) (x : FVec Ideal ⟨2, ![M, K]⟩ φ₁) (w : FVec Ideal ⟨2, ![K, N]⟩ φ₂)
    (p : Fin M) (q : Fin N) :
    matmul (F := Ideal) (DotDims.plain M K N) prec x w (constant ⟨2, ![M, N]⟩ .f32 0x00000000#32) (ix2 p q)
      = ∑ k : Fin K, x (ix2 p k) * w (ix2 k q) :=
  Cert.Lib.DotRows.matmul_plain_apply x w p q

/-- With the right operand contracted on its last axis, the left operand's index at (p, q) and position k is (p, k). -/
theorem transposed_lhsIdx (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a; apply Fin.ext
  match a with
  | ⟨0, _⟩ => rfl
  | ⟨1, _⟩ => exact ((DotDims.transposedRhs M K N).lhsIdx_val_of_single rfl _ _).trans hk

/-- … and the right operand's index is (q, k). -/
theorem transposed_rhsIdx (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a; apply Fin.ext
  match a with
  | ⟨0, _⟩ => rfl
  | ⟨1, _⟩ => exact ((DotDims.transposedRhs M K N).rhsIdx_val_of_single rfl _ _).trans hk

/-- Entry (p, q) of a kernel's product of x with the transpose of w, into the zero splat, at any precision. -/
theorem matmul_transposed_prec (prec : Option ContractPrecision) (x : FVec Ideal ⟨2, ![M, K]⟩ φ₁) (w : FVec Ideal ⟨2, ![N, K]⟩ φ₂)
    (p : Fin M) (q : Fin N) :
    matmul (F := Ideal) (DotDims.transposedRhs M K N) prec x w (constant ⟨2, ![M, N]⟩ .f32 0x00000000#32) (ix2 p q)
      = ∑ k : Fin K, x (ix2 p k) * w (ix2 q k) := by
  simp only [matmul]
  rw [Ideal.matmul_constant_zero_apply, ← Equiv.sum_comp (contrEquiv1 (DotDims.transposedRhs M K N) K rfl rfl).symm]
  exact Finset.sum_congr rfl fun k _ => by rw [transposed_lhsIdx, transposed_rhsIdx]

end Cert.LibDotForms

end
-- ==== Proof.BodyValue.lean ====
/-
  The kernel body's arithmetic, read entry by entry over the extended reals.

  One grid point holds a block A of 1024 rows (index p) and a block B of 1024 rows (index n), each of K lanes, a block V
  of 1024 rows and 64 lanes, and an accumulator of the same shape as V. With the named constants c = −1/d and c₂ = −2/d
  it forms, for every pair (p, n),
      t[p, n] = (c·|a_p|² + c·|b_n|²) − c₂·⟨a_p, b_n⟩ ,        w[p, n] = exp(min(t[p, n], 0)) · 1 ,
  where |a_p|² is the sum over the lanes of the squares of row p (a lane sum laid out as a column, resp. as a row, and
  broadcast over the 1024 × 1024 tile) and ⟨a_p, b_n⟩ is entry (p, n) of the product of A with the transpose of B; it then
  adds the product w · V to the accumulator:
      acc'[p, q] = acc[p, q] + Σ_n w[p, n] · V[n, q] .
  A change of float format is the identity on the extended reals, and a product accumulated into the zero array is the
  plain sum of products, so every step below is a re-indexing: nothing here needs the entries to be finite.
  The remaining payloads are a cast to the same shape (the identity), the zero array, and the sum of the accumulator with
  lanes 32 … 95 of the 96-lane block.
-/
import proofs.«107588_j19954418057367_2_alg».proof.Proof.Gen.KernelIdeal.Skeleton
import proofs.«107588_j19954418057367_2_alg».proof.Proof.Spec
import proofs.«107588_j19954418057367_2_alg».proof.Proof.LibDotRows
import proofs.«107588_j19954418057367_2_alg».proof.Proof.LibDotForms
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.BodyValue

open Idealize.ShloMosaic Idealize.ShloMosaic.ValueIdx Cert.Spec Cert.KernelIdeal Cert.KernelIdeal.Gen

/-! ## Layout operations read at an index -/

section Layout
variable {α : Type}

/-- A vector of length a cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum over the lanes of row p: a sum-reduction of an [R, K] array along axis 1, read at p. -/
theorem rowSum_apply {R K : ℕ} (X : FVec Ideal ⟨2, ![R, K]⟩ .f32) (h : (⟨2, ![R, K]⟩ : Shape).Reduces [1] ⟨1, ![R]⟩) (p : Fin R) :
    multiReduction (F := Ideal) .add [1] ⟨1, ![R]⟩ X 0x00000000#32 h (.inl rfl) rfl (ix1 p) = ∑ k : Fin K, X (ix2 p k) := by
  refine (Ideal.multiReduction_add_single X 0x00000000#32 h (.inl rfl) rfl (ix1 p)).trans ?_
  refine Finset.sum_congr rfl fun k _ => congrArg X ?_
  funext a; apply Fin.ext
  match a with
  | ⟨0, _⟩ => rfl
  | ⟨1, _⟩ => rfl

/-- The exponential of an array, read at an index. -/
theorem exp_apply {s : Shape} {φ : FTy} (a : FVec Ideal s φ) (i : s.Idx) : exp a i = Ideal.exp (a i) := rfl

/-! ## The named constants -/

theorem neg_inv_98 : Named.named (F := Ideal) κ "neg_inv_98" (φ := .f32) 0xBC272F05#32 = ((-1 / 98 : ℝ) : EReal) :=
  IdealRules.named_const.ideal_named_scalar _ _ _ _ rfl
theorem neg_inv_49 : Named.named (F := Ideal) κ "neg_inv_49" (φ := .f32) 0xBCA72F05#32 = ((-1 / 49 : ℝ) : EReal) :=
  IdealRules.named_const.ideal_named_scalar _ _ _ _ rfl
theorem neg_inv_162 : Named.named (F := Ideal) κ "neg_inv_162" (φ := .f32) 0xBBCA4588#32 = ((-1 / 162 : ℝ) : EReal) :=
  IdealRules.named_const.ideal_named_scalar _ _ _ _ rfl
theorem neg_inv_81 : Named.named (F := Ideal) κ "neg_inv_81" (φ := .f32) 0xBC4A4588#32 = ((-1 / 81 : ℝ) : EReal) :=
  IdealRules.named_const.ideal_named_scalar _ _ _ _ rfl

/-! ## The small payloads -/

theorem pay1_eq (v : FVec Ideal S1024x64 .f32) : k0_pay1 v = v := shapeCast_self v _
theorem pay6_eq (v : FVec Ideal S1024x64 .f32) : k0_pay6 v = v := shapeCast_self v _
theorem pay4_eq (v : Vec Ideal S1024x96 .f32) : k0_pay4 (F := Ideal) v = v := shapeCast_self v _

theorem pay3_apply (p : Fin 1024) (q : Fin 64) : k0_pay3 (F := Ideal) (ix2 p q) = 0 := by
  unfold k0_pay3
  rw [shapeCast_self]
  exact Ideal.ofBits_zero_f32

theorem pay2_apply (v4 : FVec Ideal S1024x96 .f32) (v82 : Vec Ideal S1024x64 .f32) (p : Fin 1024) (q : Fin 64) :
    k0_pay2 (F := Ideal) v4 v82 (ix2 p q) = v82 (ix2 p q) + v4 (ix2 p ⟨32 + q.val, by omega⟩) := by
  unfold k0_pay2
  show v82 (ix2 p q) + extractStridedSlice S1024x64 ![0, 32] v4 slices_S1024x96_o0_32_S1024x64 (ix2 p q) = _
  refine congrArg (v82 (ix2 p q) + ·) ?_
  exact slice2_axis1_apply 32 v4 slices_S1024x96_o0_32_S1024x64 p q ⟨32 + q.val, by omega⟩ rfl

/-! ## One tile: the Gaussian weights of 1024 rows against 1024 rows, applied to a block of V and accumulated -/

/-- The scaled sum of squares of row p of A, as the kernel lays it out: a lane sum, cast to a column, scaled, broadcast over the tile. -/
theorem colTerm_apply {K : ℕ} (c : EReal) (A : FVec Ideal ⟨2, ![1024, K]⟩ .f32)
    (hred : (⟨2, ![1024, K]⟩ : Shape).Reduces [1] S1024) (p n : Fin 1024) :
    broadcastTo S1024x1024 (mulf (broadcast S1024x1 c)
        (shapeCast S1024x1 (multiReduction .add [1] S1024 (mulf A A) 0x00000000#32 hred (.inl rfl) rfl) shapeCasts_S1024_S1024x1))
      broadcasts_S1024x1_S1024x1024 (ix2 p n) = c * rowSq A p := by
  refine (broadcastTo_a1_ab_apply _ broadcasts_S1024x1_S1024x1024 p n).trans ?_
  refine congrArg (c * ·) ?_
  refine (shapeCast_a_a1_apply _ shapeCasts_S1024_S1024x1 p 0).trans ?_
  exact rowSum_apply (mulf A A) hred p

/-- The scaled sum of squares of row n of B, as the kernel lays it out: a lane sum, cast to a row, scaled, broadcast over the tile. -/
theorem rowTerm_apply {K : ℕ} (c : EReal) (B : FVec Ideal ⟨2, ![1024, K]⟩ .f32)
    (hred : (⟨2, ![1024, K]⟩ : Shape).Reduces [1] S1024) (p n : Fin 1024) :
    broadcastTo S1024x1024 (mulf (broadcast S1x1024 c)
        (shapeCast S1x1024 (multiReduction .add [1] S1024 (mulf B B) 0x00000000#32 hred (.inl rfl) rfl) shapeCasts_S1024_S1x1024))
      broadcasts_S1x1024_S1024x1024 (ix2 p n) = c * rowSq B n := by
  refine (broadcastTo_1b_ab_apply _ broadcasts_S1x1024_S1024x1024 p n).trans ?_
  refine congrArg (c * ·) ?_
  refine (shapeCast_a_1a_apply _ shapeCasts_S1024_S1x1024 0 n).trans ?_
  exact rowSum_apply (mulf B B) hred n

/-- The inner products of the rows of A with the rows of B: the product of A with the transpose of B, into the zero splat. -/
theorem crossTerm_apply {K : ℕ} (A B : FVec Ideal ⟨2, ![1024, K]⟩ .f32)
    (htr : (⟨2, ![1024, K]⟩ : Shape).Transposes [1, 0] ⟨2, ![K, 1024]⟩) (p n : Fin 1024) :
    matmul (DotDims.plain 1024 K 1024) none (truncf .bf16 A bitsLt_bf16_f32)
        (transpose ⟨2, ![K, 1024]⟩ [1, 0] (truncf .bf16 B bitsLt_bf16_f32) htr) (constant S1024x1024 .f32 0x00000000#32) (ix2 p n)
      = ∑ k : Fin K, A (ix2 p k) * B (ix2 n k) := by
  refine (Cert.LibDotForms.matmul_plain_prec none _ _ p n).trans ?_
  refine Finset.sum_congr rfl fun k _ => ?_
  refine congrArg (A (ix2 p k) * ·) ?_
  exact transpose_ix2_apply _ htr k n

/-- ONE TILE. Entry (p, q) of the accumulator after the tile: the accumulator before, plus the sum over the tile's 1024 rows n of
    the weight exp(min((c·|a_p|² + c·|b_n|²) − c₂·⟨a_p, b_n⟩, 0)) · 1 times V[n, q]. -/
theorem tile_apply {K : ℕ} (c c2 : EReal) (A B : FVec Ideal ⟨2, ![1024, K]⟩ .f32) (acc V : FVec Ideal S1024x64 .f32)
    (hred : (⟨2, ![1024, K]⟩ : Shape).Reduces [1] S1024)
    (htr : (⟨2, ![1024, K]⟩ : Shape).Transposes [1, 0] ⟨2, ![K, 1024]⟩) (p : Fin 1024) (q : Fin 64) :
    addf acc
      (matmul (DotDims.plain 1024 1024 64) none
        (truncf .bf16
          (mulf
            (exp (minimumf
              (subf
                (addf
                  (broadcastTo S1024x1024 (mulf (broadcast S1024x1 c)
                      (shapeCast S1024x1 (multiReduction .add [1] S1024 (mulf A A) 0x00000000#32 hred (.inl rfl) rfl) shapeCasts_S1024_S1024x1))
                    broadcasts_S1024x1_S1024x1024)
                  (broadcastTo S1024x1024 (mulf (broadcast S1x1024 c)
                      (shapeCast S1x1024 (multiReduction .add [1] S1024 (mulf B B) 0x00000000#32 hred (.inl rfl) rfl) shapeCasts_S1024_S1x1024))
                    broadcasts_S1x1024_S1024x1024))
                (mulf (broadcast S1024x1024 c2)
                  (matmul (DotDims.plain 1024 K 1024) none (truncf .bf16 A bitsLt_bf16_f32)
                    (transpose ⟨2, ![K, 1024]⟩ [1, 0] (truncf .bf16 B bitsLt_bf16_f32) htr) (constant S1024x1024 .f32 0x00000000#32))))
              (broadcast S1024x1024 (Scalar.ofBits (F := Ideal) .f32 0x00000000#32))))
            (broadcast S1024x1024 (Scalar.ofBits (F := Ideal) .f32 0x3F800000#32)))
          bitsLt_bf16_f32)
        (truncf .bf16 V bitsLt_bf16_f32)
        (constant S1024x64 .f32 0x00000000#32))
      (ix2 p q)
    = acc (ix2 p q) + ∑ n : Fin 1024,
        (Ideal.exp (min ((c * rowSq A p + c * rowSq B n) - c2 * (∑ k : Fin K, A (ix2 p k) * B (ix2 n k))) 0) * 1) * V (ix2 n q) := by
  refine congrArg (acc (ix2 p q) + ·) ?_
  refine (Cert.LibDotForms.matmul_plain_prec none _ _ p q).trans ?_
  refine Finset.sum_congr rfl fun n _ => ?_
  refine congrArg (· * V (ix2 n q)) ?_
  have e1 := colTerm_apply c A hred p n
  have e2 := rowTerm_apply c B hred p n
  have e3 := crossTerm_apply A B htr p n
  simp only [truncf_apply, mulf_apply, exp_apply, minimumf_apply, subf_apply, addf_apply, broadcast_apply]
  rw [e1, e2, e3]
  exact congrArg₂ (fun z o => Ideal.exp (min ((c * rowSq A p + c * rowSq B n) - c2 * (∑ k : Fin K, A (ix2 p k) * B (ix2 n k))) z) * o)
    Ideal.ofBits_zero_f32 Ideal.ofBits_one_f32

/-! ## The two accumulating payloads -/

/-- The first accumulation (96 lanes, scale 98): the constants are −1/98 and −1/49. -/
theorem pay5_apply (v3 v5 : Vec Ideal S1024x96 .f32) (v32 v34 : Vec Ideal S1024x64 .f32) (p : Fin 1024) (q : Fin 64) :
    k0_pay5 (F := Ideal) v3 v5 v32 v34 (ix2 p q)
      = v32 (ix2 p q) + ∑ n : Fin 1024,
          (Ideal.exp (min ((((-1 / 98 : ℝ) : EReal) * rowSq v3 p + ((-1 / 98 : ℝ) : EReal) * rowSq v5 n)
            - ((-1 / 49 : ℝ) : EReal) * (∑ k : Fin 96, v3 (ix2 p k) * v5 (ix2 n k))) 0) * 1) * v34 (ix2 n q) := by
  unfold k0_pay5
  simp only [pay4_eq, shapeCast_self, neg_inv_98, neg_inv_49]
  exact tile_apply _ _ v3 v5 v32 v34 reduces_S1024x96_S1024 transposes_S1024x96_p1_0_S96x1024 p q

/-- The second accumulation (160 lanes, scale 162): the constants are −1/162 and −1/81. -/
theorem pay7_apply (v41 v43 : Vec Ideal S1024x160 .f32) (v70 v72 : Vec Ideal S1024x64 .f32) (p : Fin 1024) (q : Fin 64) :
    k0_pay7 (F := Ideal) v41 v43 v70 v72 (ix2 p q)
      = v70 (ix2 p q) + ∑ n : Fin 1024,
          (Ideal.exp (min ((((-1 / 162 : ℝ) : EReal) * rowSq v41 p + ((-1 / 162 : ℝ) : EReal) * rowSq v43 n)
            - ((-1 / 81 : ℝ) : EReal) * (∑ k : Fin 160, v41 (ix2 p k) * v43 (ix2 n k))) 0) * 1) * v72 (ix2 n q) := by
  unfold k0_pay7
  simp only [shapeCast_self, neg_inv_162, neg_inv_81]
  exact tile_apply _ _ v41 v43 v70 v72 reduces_S1024x160_S1024 transposes_S1024x160_p1_0_S160x1024 p q

end Cert.BodyValue

end
-- ==== Proof.TileJoin.lean ====
/-
  From one tile of the kernel to the specification's row of the Gaussian smoother.

  The kernel cuts the 8192 rows into 8 blocks of 1024. At the grid point (i, j) it holds rows 1024·i + p of the row
  block and rows 1024·j + n of the column block, and adds to the accumulator, at (p, q),
      Σ_n w₉₈[p, n] · V_mean[1024·j + n, q]   and then   Σ_n w₁₆₂[p, n] · V_var[1024·j + n, q] ,
  where w_d[p, n] = exp(min((c·|a_p|² + c·|b_n|²) − c₂·⟨a_p, b_n⟩, 0)) · 1 with c = −1/d, c₂ = −2/d.
  Since block row p of block i IS row 1024·i + p of the whole array, |a_p|², |b_n|² and ⟨a_p, b_n⟩ are the whole array's
  row quantities, and for REAL entries the law of the two arrangements turns w_d[p, n] into the Gaussian kernel entry
      gauss d X (1024·i + p) (1024·j + n) .
  The summands are written as functions of a NATURAL row number s (zero beyond the last row), so that the eight column
  blocks can be put together by a lemma about sums over ℕ; summed over all 8192 rows they are the specification's smoother.
-/
import proofs.«107588_j19954418057367_2_alg».proof.Proof.TileLaw
import proofs.«107588_j19954418057367_2_alg».proof.Proof.BodyValue
import proofs.«107588_j19954418057367_2_alg».proof.Proof.Spec
import proofs.«107588_j19954418057367_2_alg».proof.Proof.LibRealSum
import proofs.«107588_j19954418057367_2_alg».proof.Proof.BodyIdeal

noncomputable section

open scoped BigOperators

namespace Cert.TileJoin

open Idealize.ShloMosaic Idealize.ShloMosaic.ValueIdx Cert.Spec Cert.LibRealSum Cert.KernelIdeal Cert.KernelIdeal.Gen

/-- The summand of the first smoother (scale 98) at the natural row number s: K₉₈(X)[r, s] · V[s, q], zero beyond the last row. -/
def termM (X : Arr 8192 96) (V : Arr 8192 64) (r : Fin 8192) (q : Fin 64) (s : ℕ) : EReal :=
  if h : s < 8192 then gauss 98 X r ⟨s, h⟩ * V (ix2 ⟨s, h⟩ q) else 0

/-- The summand of the second smoother (scale 162) at the natural row number s: K₁₆₂(X)[r, s] · V[s, q], zero beyond the last row. -/
def termV (X : Arr 8192 160) (V : Arr 8192 64) (r : Fin 8192) (q : Fin 64) (s : ℕ) : EReal :=
  if h : s < 8192 then gauss 162 X r ⟨s, h⟩ * V (ix2 ⟨s, h⟩ q) else 0

/-! ## A block's row quantities are the whole array's -/

/-- The sum of squares of row p of block i is that of row 1024·i + p of the whole array. -/
theorem rowSq_block {K : ℕ} (X : Arr 8192 K) (A : Arr 1024 K) (i : ℕ)
    (hA : ∀ (p : Fin 1024) (k : Fin K) (h : 1024 * i + p.val < 8192), A (ix2 p k) = X (ix2 ⟨1024 * i + p.val, h⟩ k))
    (p : Fin 1024) (hr : 1024 * i + p.val < 8192) : rowSq A p = rowSq X ⟨1024 * i + p.val, hr⟩ :=
  Finset.sum_congr rfl fun k _ => by rw [hA p k hr]

/-- The inner product of row p of block i with row n of block j is that of rows 1024·i + p and 1024·j + n of the whole array. -/
theorem cross_block {K : ℕ} (X : Arr 8192 K) (A B : Arr 1024 K) (i j : ℕ)
    (hA : ∀ (p : Fin 1024) (k : Fin K) (h : 1024 * i + p.val < 8192), A (ix2 p k) = X (ix2 ⟨1024 * i + p.val, h⟩ k))
    (hB : ∀ (p : Fin 1024) (k : Fin K) (h : 1024 * j + p.val < 8192), B (ix2 p k) = X (ix2 ⟨1024 * j + p.val, h⟩ k))
    (p n : Fin 1024) (hr : 1024 * i + p.val < 8192) (hs : 1024 * j + n.val < 8192) :
    ∑ k : Fin K, A (ix2 p k) * B (ix2 n k) = rowDot X ⟨1024 * i + p.val, hr⟩ ⟨1024 * j + n.val, hs⟩ :=
  Finset.sum_congr rfl fun k _ => by rw [hA p k hr, hB n k hs]

/-- A tile's weight at (p, n) is the Gaussian kernel entry of the whole array at rows 1024·i + p and 1024·j + n, given the law
    of the two arrangements for the whole array. -/
theorem weight_block {K : ℕ} (d : ℝ) (c c2 : EReal) (X : Arr 8192 K) (A B : Arr 1024 K) (i j : ℕ)
    (hA : ∀ (p : Fin 1024) (k : Fin K) (h : 1024 * i + p.val < 8192), A (ix2 p k) = X (ix2 ⟨1024 * i + p.val, h⟩ k))
    (hB : ∀ (p : Fin 1024) (k : Fin K) (h : 1024 * j + p.val < 8192), B (ix2 p k) = X (ix2 ⟨1024 * j + p.val, h⟩ k))
    (hlaw : ∀ r s : Fin 8192, Ideal.exp (min ((c * rowSq X r + c * rowSq X s) - c2 * rowDot X r s) 0) * 1 = gauss d X r s)
    (p n : Fin 1024) (hr : 1024 * i + p.val < 8192) (hs : 1024 * j + n.val < 8192) :
    Ideal.exp (min ((c * rowSq A p + c * rowSq B n) - c2 * (∑ k : Fin K, A (ix2 p k) * B (ix2 n k))) 0) * 1
      = gauss d X ⟨1024 * i + p.val, hr⟩ ⟨1024 * j + n.val, hs⟩ := by
  rw [rowSq_block X A i hA p hr, rowSq_block X B j hB n hs, cross_block X A B i j hA hB p n hr hs]
  exact hlaw _ _

/-! ## One grid point's update of the accumulator -/

/-- At the grid point (i, j), entry (p, q) of the updated accumulator is the accumulator before plus the summands of the two
    smoothers of row 1024·i + p over the rows 1024·j … 1024·j + 1023. The entries of X_mean and X_var are real. -/
theorem accStep_apply (Xm : Arr 8192 96) (Xv : Arr 8192 160) (vm vv : Arr 8192 64)
    (hXm : ∀ i, IsReal (Xm i)) (hXv : ∀ i, IsReal (Xv i)) (i j : ℕ) (hi : i < 8) (hj : j < 8)
    (x0 x1 : Vec Ideal S1024x96 .f32) (x2 x3 : Vec Ideal S1024x160 .f32) (x4 x5 a : Vec Ideal S1024x64 .f32)
    (h0 : ∀ (p : Fin 1024) (k : Fin 96) (h : 1024 * i + p.val < 8192), x0 (ix2 p k) = Xm (ix2 ⟨1024 * i + p.val, h⟩ k))
    (h1 : ∀ (p : Fin 1024) (k : Fin 96) (h : 1024 * j + p.val < 8192), x1 (ix2 p k) = Xm (ix2 ⟨1024 * j + p.val, h⟩ k))
    (h2 : ∀ (p : Fin 1024) (k : Fin 160) (h : 1024 * i + p.val < 8192), x2 (ix2 p k) = Xv (ix2 ⟨1024 * i + p.val, h⟩ k))
    (h3 : ∀ (p : Fin 1024) (k : Fin 160) (h : 1024 * j + p.val < 8192), x3 (ix2 p k) = Xv (ix2 ⟨1024 * j + p.val, h⟩ k))
    (h4 : ∀ (p : Fin 1024) (k : Fin 64) (h : 1024 * j + p.val < 8192), x4 (ix2 p k) = vm (ix2 ⟨1024 * j + p.val, h⟩ k))
    (h5 : ∀ (p : Fin 1024) (k : Fin 64) (h : 1024 * j + p.val < 8192), x5 (ix2 p k) = vv (ix2 ⟨1024 * j + p.val, h⟩ k))
    (p : Fin 1024) (q : Fin 64) (hr : 1024 * i + p.val < 8192) :
    Cert.KernelIdeal.Hand.accStep (F := Ideal) x0 x1 x2 x3 x4 x5 a (ix2 p q)
      = (a (ix2 p q) + ∑ n : Fin 1024, termM Xm vm ⟨1024 * i + p.val, hr⟩ q (1024 * j + n.val))
          + ∑ n : Fin 1024, termV Xv vv ⟨1024 * i + p.val, hr⟩ q (1024 * j + n.val) := by
  have hs : ∀ n : Fin 1024, 1024 * j + n.val < 8192 := fun n => by have := n.isLt; omega
  unfold Cert.KernelIdeal.Hand.accStep
  refine (congrFun (Cert.BodyValue.pay1_eq _) (ix2 p q)).trans ?_
  refine (Cert.BodyValue.pay7_apply x2 x3 _ x5 p q).trans ?_
  rw [Cert.BodyValue.pay6_eq, Cert.BodyValue.pay5_apply]
  refine congrArg₂ (· + ·) (congrArg (a (ix2 p q) + ·) (Finset.sum_congr rfl fun n _ => ?_)) (Finset.sum_congr rfl fun n _ => ?_)
  · rw [termM, dif_pos (hs n), h4 n q (hs n),
      weight_block 98 _ _ Xm x0 x1 i j h0 h1 (Cert.TileLaw.kernel_form_eq_gauss_98 Xm hXm) p n hr (hs n)]
  · rw [termV, dif_pos (hs n), h5 n q (hs n),
      weight_block 162 _ _ Xv x2 x3 i j h2 h3 (Cert.TileLaw.kernel_form_eq_gauss_162 Xv hXv) p n hr (hs n)]

/-- What the last column writes: the accumulator plus lanes 32 … 95 of the row block. -/
theorem outVal_apply (x0 : Vec Ideal S1024x96 .f32) (acc : Vec Ideal S1024x64 .f32) (p : Fin 1024) (q : Fin 64) :
    Cert.KernelIdeal.Hand.outVal (F := Ideal) x0 acc (ix2 p q) = acc (ix2 p q) + x0 (ix2 p ⟨32 + q.val, by omega⟩) := by
  unfold Cert.KernelIdeal.Hand.outVal
  rw [Cert.BodyValue.pay4_eq]
  exact Cert.BodyValue.pay2_apply x0 acc p q

/-! ## Summed over all rows, the summands are the specification's smoothers -/

theorem sum_termM (X : Arr 8192 96) (V : Arr 8192 64) (r : Fin 8192) (q : Fin 64) :
    ∑ s : Fin 8192, termM X V r q s.val = smooth 98 X V r q :=
  Finset.sum_congr rfl fun s _ => by rw [termM, dif_pos s.isLt]

theorem sum_termV (X : Arr 8192 160) (V : Arr 8192 64) (r : Fin 8192) (q : Fin 64) :
    ∑ s : Fin 8192, termV X V r q s.val = smooth 162 X V r q :=
  Finset.sum_congr rfl fun s _ => by rw [termV, dif_pos s.isLt]

end Cert.TileJoin

end
-- ==== Proof.AccSum.lean ====
/-
  An accumulator that takes two terms per step, against two whole sums.

  A running total starts at 0 and at each of the steps 0, …, j takes first f's term, then g's. Addition of extended
  reals is commutative and associative (no finiteness is needed for that), so the total after step j is the sum of
  f's terms plus the sum of g's terms. A sum over 8192 consecutive indices is the sum over 8 consecutive blocks of the
  sums over the 1024 indices of each block. Together: accumulating, block by block, the block sums of f and of g and
  adding y at the end gives y plus the whole sum of f plus the whole sum of g.
-/
import Mathlib

noncomputable section

open scoped BigOperators

namespace Cert.AccSum

/-- The running total after step j: from 0, each step adds f's term and then g's. -/
def accSum (f g : ℕ → EReal) : ℕ → EReal
  | 0 => ((0 : EReal) + f 0) + g 0
  | (j + 1) => (accSum f g j + f (j + 1)) + g (j + 1)

/-- The running total is the sum of f's terms plus the sum of g's terms. -/
theorem accSum_eq (f g : ℕ → EReal) (j : ℕ) :
    accSum f g j = (∑ k ∈ Finset.range (j + 1), f k) + ∑ k ∈ Finset.range (j + 1), g k := by
  induction j with
  | zero => simp [accSum]
  | succ j ih =>
    rw [accSum, ih, Finset.sum_range_succ f (j + 1), Finset.sum_range_succ g (j + 1)]
    abel

/-- A sum over m · n consecutive indices is the sum over m consecutive blocks of n. -/
theorem sum_range_blocks (h : ℕ → EReal) (n : ℕ) (m : ℕ) :
    ∑ s ∈ Finset.range (m * n), h s = ∑ j ∈ Finset.range m, ∑ i ∈ Finset.range n, h (n * j + i) := by
  induction m with
  | zero => simp
  | succ m ih =>
    rw [Nat.succ_mul, Finset.sum_range_add, ih, Finset.sum_range_succ, Nat.mul_comm m n]

/-- The sum over 8192 indices is the sum over 8 blocks of 1024. -/
theorem sum_blocks (h : ℕ → EReal) :
    ∑ s : Fin 8192, h s.val = ∑ j ∈ Finset.range 8, ∑ n : Fin 1024, h (1024 * j + n.val) := by
  rw [Fin.sum_univ_eq_sum_range (fun s => h s) 8192, show (8192 : ℕ) = 8 * 1024 from rfl, sum_range_blocks h 1024 8]
  exact Finset.sum_congr rfl fun j _ => (Fin.sum_univ_eq_sum_range (fun i => h (1024 * j + i)) 1024).symm

/-- Accumulating the block sums of f and of g over the 8 blocks and adding y last gives y plus the whole sum of f
    plus the whole sum of g. -/
theorem total (y : EReal) (f g : ℕ → EReal) :
    accSum (fun j => ∑ n : Fin 1024, f (1024 * j + n.val)) (fun j => ∑ n : Fin 1024, g (1024 * j + n.val)) 7 + y
      = (y + ∑ s : Fin 8192, f s.val) + ∑ s : Fin 8192, g s.val := by
  rw [accSum_eq, sum_blocks f, sum_blocks g, add_comm, add_assoc]

end Cert.AccSum

end
-- ==== Proof.KernelValue.lean ====
/-
  The array the idealized kernel writes, as one function of the argument arrays.

  Fix a core, a row r = 1024·i + p and a lane q. Write M(s) = K₉₈(X_mean)[r,s] · V_mean[s,q] and V(s) = K₁₆₂(X_var)[r,s] · V_var[s,q].
  After the point in column j of row block i the accumulator's entry (p, q) is
      ((…((0 + M-block 0) + V-block 0) + …) + M-block j) + V-block j,
  an M-block being the sum of M over the 1024 rows of one column tile: by induction on j, each step one `accStep`, whose
  arithmetic at an index is the kernel's arrangement of the Gaussian entry and equals the reference's for real entries.
  After column 7 the body adds lane 32 + q of X_mean's row r, which is Y_mean[r,q] + Y_var[r,q], and writes the block back.
  Additions of extended reals may be reordered freely, and the eight blocks of 1024 rows are all 8192 rows, so the value
  written is (Y_mean[r,q] + Y_var[r,q]) + Σ_s M(s) + Σ_s V(s): the specification's result. The output's eight row blocks
  cover the array.
-/
import proofs.«107588_j19954418057367_2_alg».proof.Proof.Gen.KernelIdeal.Launch
import proofs.«107588_j19954418057367_2_alg».proof.Proof.Gen.KernelIdeal.Skeleton
import proofs.«107588_j19954418057367_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import proofs.«107588_j19954418057367_2_alg».proof.Proof.Gen.Pre_finite_inputs
import proofs.«107588_j19954418057367_2_alg».proof.Proof.FrameRunIdeal
import proofs.«107588_j19954418057367_2_alg».proof.Proof.KernelBlocks
import proofs.«107588_j19954418057367_2_alg».proof.Proof.KernelEntry
import proofs.«107588_j19954418057367_2_alg».proof.Proof.TileJoin
import proofs.«107588_j19954418057367_2_alg».proof.Proof.AccSum
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx Cert.Spec Cert.LibRealSum Cert.TileJoin Cert.AccSum

variable (m : (ℓ : Loc nD τ sig) → Buf (Elt Ideal) ℓ) (ρ : Dev nD → PrngReg)

/-- X_mean and X_var of core `c`'s argument arrays. -/
abbrev XM (c : Dev nD) : Arr 8192 96 := Cert.RefSide.Xm (m ((c.tc : Thread nD τ).loc main_arg0)) (m ((c.tc : Thread nD τ).loc main_arg2)) (m ((c.tc : Thread nD τ).loc main_arg3))
abbrev XV (c : Dev nD) : Arr 8192 160 := Cert.RefSide.Xv (m ((c.tc : Thread nD τ).loc main_arg0)) (m ((c.tc : Thread nD τ).loc main_arg1)) (m ((c.tc : Thread nD τ).loc main_arg2)) (m ((c.tc : Thread nD τ).loc main_arg3))
/-- V_mean and V_var. -/
abbrev VM (c : Dev nD) : Arr 8192 64 := (m ((c.tc : Thread nD τ).loc main_arg4))
abbrev VV (c : Dev nD) : Arr 8192 64 := (m ((c.tc : Thread nD τ).loc main_arg5))

/-- The specification's result of core `c`'s argument arrays. -/
abbrev G (c : Dev nD) : Arr 8192 64 := resultArr (XM m c) (XV m c) (m ((c.tc : Thread nD τ).loc main_arg2)) (m ((c.tc : Thread nD τ).loc main_arg3)) (VM m c) (VV m c)

/-- Under the precondition the entries of X_mean and X_var are real numbers. -/
theorem reals (hfin : ∀ c : Dev nD, Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1)
    (c : Dev nD) : (∀ i, IsReal (XM m c i)) ∧ (∀ i, IsReal (XV m c i)) := by
  obtain ⟨h0, h1, h2, h3, h4, h5⟩ := Cert.RefSide.xs_real _ _ _ _ _ _ (hfin c)
  exact ⟨Cert.RefSide.Xm_real _ _ _ h0 h2 h3, Cert.RefSide.Xv_real _ _ _ _ h0 h1 h2 h3⟩

/-! ## The blocks at point 8·i + j -/

theorem V_arg4 (c : Dev nD) : V m c main_arg4 = VM m c := (V_args m c).2.2.2.2.1
theorem V_arg5 (c : Dev nD) : V m c main_arg5 = VV m c := (V_args m c).2.2.2.2.2

theorem blk0 (c : Dev nD) (i j : ℕ) (hj : j < 8) (ht : 8 * i + j < cfg0.N) (p : Fin 1024) (k : Fin 96) (h : 1024 * i + p.val < 8192) :
    iblk m c 0 ⟨8 * i + j, ht⟩ (ix2 p k) = XM m c (ix2 ⟨1024 * i + p.val, h⟩ k) := by
  have e : (8 * i + j) / 8 = i := by omega
  rw [iblk0_apply m c ⟨8 * i + j, ht⟩ p k (by show 1024 * ((8 * i + j) / 8) + p.val < 8192; rw [e]; exact h), V_v1]
  exact congrArg (fun r => XM m c (ix2 r k)) (Fin.ext (by show 1024 * ((8 * i + j) / 8) + p.val = 1024 * i + p.val; rw [e]))
theorem blk1 (c : Dev nD) (i j : ℕ) (hj : j < 8) (ht : 8 * i + j < cfg0.N) (p : Fin 1024) (k : Fin 96) (h : 1024 * j + p.val < 8192) :
    iblk m c 1 ⟨8 * i + j, ht⟩ (ix2 p k) = XM m c (ix2 ⟨1024 * j + p.val, h⟩ k) := by
  have e : (8 * i + j) % 8 = j := by omega
  rw [iblk1_apply m c ⟨8 * i + j, ht⟩ p k (by show 1024 * ((8 * i + j) % 8) + p.val < 8192; rw [e]; exact h), V_v1]
  exact congrArg (fun r => XM m c (ix2 r k)) (Fin.ext (by show 1024 * ((8 * i + j) % 8) + p.val = 1024 * j + p.val; rw [e]))
theorem blk2 (c : Dev nD) (i j : ℕ) (hj : j < 8) (ht : 8 * i + j < cfg0.N) (p : Fin 1024) (k : Fin 160) (h : 1024 * i + p.val < 8192) :
    iblk m c 2 ⟨8 * i + j, ht⟩ (ix2 p k) = XV m c (ix2 ⟨1024 * i + p.val, h⟩ k) := by
  have e : (8 * i + j) / 8 = i := by omega
  rw [iblk2_apply m c ⟨8 * i + j, ht⟩ p k (by show 1024 * ((8 * i + j) / 8) + p.val < 8192; rw [e]; exact h), V_v5]
  exact congrArg (fun r => XV m c (ix2 r k)) (Fin.ext (by show 1024 * ((8 * i + j) / 8) + p.val = 1024 * i + p.val; rw [e]))
theorem blk3 (c : Dev nD) (i j : ℕ) (hj : j < 8) (ht : 8 * i + j < cfg0.N) (p : Fin 1024) (k : Fin 160) (h : 1024 * j + p.val < 8192) :
    iblk m c 3 ⟨8 * i + j, ht⟩ (ix2 p k) = XV m c (ix2 ⟨1024 * j + p.val, h⟩ k) := by
  have e : (8 * i + j) % 8 = j := by omega
  rw [iblk3_apply m c ⟨8 * i + j, ht⟩ p k (by show 1024 * ((8 * i + j) % 8) + p.val < 8192; rw [e]; exact h), V_v5]
  exact congrArg (fun r => XV m c (ix2 r k)) (Fin.ext (by show 1024 * ((8 * i + j) % 8) + p.val = 1024 * j + p.val; rw [e]))
theorem blk4 (c : Dev nD) (i j : ℕ) (hj : j < 8) (ht : 8 * i + j < cfg0.N) (p : Fin 1024) (k : Fin 64) (h : 1024 * j + p.val < 8192) :
    iblk m c 4 ⟨8 * i + j, ht⟩ (ix2 p k) = VM m c (ix2 ⟨1024 * j + p.val, h⟩ k) := by
  have e : (8 * i + j) % 8 = j := by omega
  rw [iblk4_apply m c ⟨8 * i + j, ht⟩ p k (by show 1024 * ((8 * i + j) % 8) + p.val < 8192; rw [e]; exact h), V_arg4]
  exact congrArg (fun r => VM m c (ix2 r k)) (Fin.ext (by show 1024 * ((8 * i + j) % 8) + p.val = 1024 * j + p.val; rw [e]))
theorem blk5 (c : Dev nD) (i j : ℕ) (hj : j < 8) (ht : 8 * i + j < cfg0.N) (p : Fin 1024) (k : Fin 64) (h : 1024 * j + p.val < 8192) :
    iblk m c 5 ⟨8 * i + j, ht⟩ (ix2 p k) = VV m c (ix2 ⟨1024 * j + p.val, h⟩ k) := by
  have e : (8 * i + j) % 8 = j := by omega
  rw [iblk5_apply m c ⟨8 * i + j, ht⟩ p k (by show 1024 * ((8 * i + j) % 8) + p.val < 8192; rw [e]; exact h), V_arg5]
  exact congrArg (fun r => VV m c (ix2 r k)) (Fin.ext (by show 1024 * ((8 * i + j) % 8) + p.val = 1024 * j + p.val; rw [e]))

/-! ## The accumulator in closed form -/

theorem accAt_congr (c : Dev nD) {n n' : ℕ} (e : n = n') (h : n < cfg0.N) (h' : n' < cfg0.N) : accAt m c n h = accAt m c n' h' := by
  subst e; rfl

/-- One `accStep` at point 8·i + j, entry (p, q), over the whole arrays. -/
theorem step_apply (hfin : ∀ c : Dev nD, Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1)
    (c : Dev nD) (i j : ℕ) (hi : i < 8) (hj : j < 8) (ht : 8 * i + j < cfg0.N) (a : Vec Ideal S1024x64 .f32) (p : Fin 1024) (q : Fin 64) (hr : 1024 * i + p.val < 8192) :
    accStep (F := Ideal) (iblk m c 0 ⟨8 * i + j, ht⟩) (iblk m c 1 ⟨8 * i + j, ht⟩) (iblk m c 2 ⟨8 * i + j, ht⟩) (iblk m c 3 ⟨8 * i + j, ht⟩) (iblk m c 4 ⟨8 * i + j, ht⟩) (iblk m c 5 ⟨8 * i + j, ht⟩) a (ix2 p q)
      = (a (ix2 p q) + ∑ n : Fin 1024, termM (XM m c) (VM m c) ⟨1024 * i + p.val, hr⟩ q (1024 * j + n.val))
          + ∑ n : Fin 1024, termV (XV m c) (VV m c) ⟨1024 * i + p.val, hr⟩ q (1024 * j + n.val) :=
  accStep_apply (XM m c) (XV m c) (VM m c) (VV m c) (reals m hfin c).1 (reals m hfin c).2 i j hi hj _ _ _ _ _ _ a
    (fun p k h => blk0 m c i j hj ht p k h) (fun p k h => blk1 m c i j hj ht p k h) (fun p k h => blk2 m c i j hj ht p k h)
    (fun p k h => blk3 m c i j hj ht p k h) (fun p k h => blk4 m c i j hj ht p k h) (fun p k h => blk5 m c i j hj ht p k h) p q hr

/-- After the point in column `j` of row block `i` the accumulator's entry (p, q) is the nested sum of the first j + 1
    column tiles' two terms. -/
theorem accAt_closed (hfin : ∀ c : Dev nD, Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1)
    (c : Dev nD) (i : ℕ) (hi : i < 8) (p : Fin 1024) (q : Fin 64) (hr : 1024 * i + p.val < 8192) :
    ∀ (j : ℕ) (hj : j < 8) (ht : 8 * i + j < cfg0.N), accAt m c (8 * i + j) ht (ix2 p q)
      = accSum (fun j' => ∑ n : Fin 1024, termM (XM m c) (VM m c) ⟨1024 * i + p.val, hr⟩ q (1024 * j' + n.val))
          (fun j' => ∑ n : Fin 1024, termV (XV m c) (VV m c) ⟨1024 * i + p.val, hr⟩ q (1024 * j' + n.val)) j
  | 0, hj, ht => by
    rw [show accAt m c (8 * i + 0) ht = _ from accAt_first m c ⟨8 * i + 0, ht⟩ (by show (8 * i + 0) % 8 = 0; omega)]
    rw [step_apply m hfin c i 0 hi hj ht _ p q hr, Cert.BodyValue.pay3_apply]
    rfl
  | j + 1, hj, ht => by
    have ht' : 8 * i + j < cfg0.N := Nat.lt_of_succ_lt ht
    rw [show accAt m c (8 * i + (j + 1)) ht = _ from accAt_next m c ⟨8 * i + (j + 1), ht⟩ (by show ¬ (8 * i + (j + 1)) % 8 = 0; omega)]
    rw [step_apply m hfin c i (j + 1) hi hj ht _ p q hr]
    rw [accAt_congr m c (show (⟨8 * i + (j + 1), ht⟩ : Fin cfg0.N).val - 1 = 8 * i + j from by show 8 * i + (j + 1) - 1 = 8 * i + j; omega) _ ht']
    rw [accAt_closed hfin c i hi p q hr j (Nat.lt_of_succ_lt hj) ht']
    rfl

/-! ## What the last column writes back, and the whole array -/

/-- The output window's block at a point, entry (p, q): row 1024·(t / 8) + p of any array of the result's shape. -/
theorem out_emb (t : Fin cfg0.N) (p : Fin 1024) (q : Fin 64) (h : 1024 * (t.val / 8) + p.val < 8192) :
    ((cfg0.win 6).blk t).view.emb (ix2 p q) = (ix2 ⟨1024 * (t.val / 8) + p.val, h⟩ q : S8192x64.Idx) := by
  have e := idx_facts t
  funext a; apply Fin.ext
  match a with
  | ⟨0, _⟩ => show win0_6.index t (0 : Fin 2) * 1024 + 1 * p.val = 1024 * (t.val / 8) + p.val; omega
  | ⟨1, _⟩ => show win0_6.index t (1 : Fin 2) * 64 + 1 * q.val = q.val; omega

/-- WHAT THE LAST COLUMN WRITES BACK is its block of the specification's result. -/
theorem flushed_eq (hfin : ∀ c : Dev nD, Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1)
    (c : Dev nD) (t : Fin cfg0.N) (h7 : t.val % 8 = 7) :
    (dats m 0 c).flushed 6 t = ((cfg0.win 6).blk t).view.read (Elt Ideal) (G m c) := by
  have hN : t.val < 64 := lt_of_lt_of_eq t.isLt (show cfg0.N = 64 from N_0)
  show (cfg0.win 6).cut (grid0.coords t) ((dats m 0 c).after 6 t) = _
  rw [after6]
  funext y
  obtain ⟨p, q, rfl⟩ : ∃ (p : Fin 1024) (q : Fin 64), y = ix2 p q := ⟨y 0, y 1, eq_ix2 y⟩
  have hp : p.val < 1024 := p.isLt
  have hr : 1024 * (t.val / 8) + p.val < 8192 := by omega
  show outVal (iblk m c 0 t) (accAt m c t.val t.isLt) (ix2 p q) = G m c (((cfg0.win 6).blk t).view.emb (ix2 p q))
  rw [out_emb t p q hr, outVal_apply]
  have et : t.val = 8 * (t.val / 8) + 7 := by omega
  have ht : 8 * (t.val / 8) + 7 < cfg0.N := et ▸ t.isLt
  have e0 : iblk m c 0 t (ix2 p ⟨32 + q.val, by omega⟩) = XM m c (ix2 ⟨1024 * (t.val / 8) + p.val, hr⟩ ⟨32 + q.val, by omega⟩) := by
    rw [iblk0_apply m c t p ⟨32 + q.val, by omega⟩ hr, V_v1]
  rw [e0, accAt_congr m c et t.isLt ht, accAt_closed m hfin c (t.val / 8) (by omega) p q hr 7 (by omega) ht]
  rw [show XM m c (ix2 ⟨1024 * (t.val / 8) + p.val, hr⟩ ⟨32 + q.val, by omega⟩) = _ from Cert.RefSide.Xm_tail _ _ _ ⟨1024 * (t.val / 8) + p.val, hr⟩ q]
  rw [total, sum_termM, sum_termV]
  rfl

/-- An index of the result is in point `t`'s output block iff its row is one of the block's 1024 rows. -/
theorem mem_out_blk (t : Fin cfg0.N) (i : S8192x64.Idx) :
    i ∈ ((cfg0.win 6).blk t).view.set ↔ ∀ a : Fin 2, win0_6.index t a * S1024x64.size a ≤ (i a).val ∧ (i a).val < win0_6.index t a * S1024x64.size a + S1024x64.size a := by
  show i ∈ ((View.whole main_v6).slice (win0_6.rect t)).set ↔ _
  rw [View.set_slice_whole, Rect.mem_set_unit]
  exact Iff.rfl

/-- Every index of the result is in the block some last-column point writes back. -/
theorem out_cover (i : S8192x64.Idx) : ∃ t : Fin cfg0.N, (cfg0.win 6).flush t = true ∧ i ∈ ((cfg0.win 6).blk t).view.set := by
  have hi0 : (i 0).val < 8192 := (i 0).isLt
  have hi1 : (i 1).val < 64 := (i 1).isLt
  have hlt : 8 * ((i 0).val / 1024) + 7 < cfg0.N :=
    lt_of_lt_of_eq (by omega : 8 * ((i 0).val / 1024) + 7 < 64) (N_0).symm
  refine ⟨⟨8 * ((i 0).val / 1024) + 7, hlt⟩, (flush0_6 _).mpr (by show (8 * ((i 0).val / 1024) + 7) % 8 = 7; omega), ?_⟩
  rw [mem_out_blk]
  have e := idx_facts ⟨8 * ((i 0).val / 1024) + 7, hlt⟩
  have e60 : win0_6.index ⟨8 * ((i 0).val / 1024) + 7, hlt⟩ (0 : Fin 2) = (8 * ((i 0).val / 1024) + 7) / 8 := e.2.2.2.2.2.2.2.2.2.2.2.2.1
  have e61 : win0_6.index ⟨8 * ((i 0).val / 1024) + 7, hlt⟩ (1 : Fin 2) = 0 := e.2.2.2.2.2.2.2.2.2.2.2.2.2
  intro a
  match a with
  | ⟨0, _⟩ => show win0_6.index _ (0 : Fin 2) * 1024 ≤ (i 0).val ∧ (i 0).val < win0_6.index _ (0 : Fin 2) * 1024 + 1024; rw [e60]; omega
  | ⟨1, _⟩ => show win0_6.index _ (1 : Fin 2) * 64 ≤ (i 1).val ∧ (i 1).val < win0_6.index _ (1 : Fin 2) * 64 + 64; rw [e61]; omega

/-- THE RESULT ARRAY after the run is the specification's result of the argument arrays. -/
theorem final (hfin : ∀ c : Dev nD, Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1)
    (c : Dev nD) : (dats m 0 c).arrAt 6 cfg0.N = G m c :=
  (dats m 0 c).arrAt_eq_of_cover 6 (G m c) (fun t hf => flushed_eq m hfin c t ((flush0_6 t).mp hf)) out_cover

/-- The run with the result named: the result array ends at the specification's result, the arguments unchanged. -/
theorem run_value (hfin : ∀ c : Dev nD, Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) :
    θ_run defs (onTc (τ := τ) (main (F := Ideal))) ⟨m, fun _ => 0, ρ⟩ (fun r => ∀ c : Dev nD,
      r.2.mem ((c.tc : Thread nD τ).loc main_v6) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 6).trans (final m hfin c),
     ((h c).2 main_arg0 (Pipeline.mem_restRefs_of main_arg0 rfl (by decide))).trans (V_args m c).1,
     ((h c).2 main_arg1 (Pipeline.mem_restRefs_of main_arg1 rfl (by decide))).trans (V_args m c).2.1,
     ((h c).2 main_arg2 (Pipeline.mem_restRefs_of main_arg2 rfl (by decide))).trans (V_args m c).2.2.1,
     ((h c).2 main_arg3 (Pipeline.mem_restRefs_of main_arg3 rfl (by decide))).trans (V_args m c).2.2.2.1,
     ((h c).1 4).trans (((dats m 0 c).arrAt_in 4 rfl _).trans ((A_eq m c 4).trans (V_args m c).2.2.2.2.1)),
     ((h c).1 5).trans (((dats m 0 c).arrAt_in 5 rfl _).trans ((A_eq m c 5).trans (V_args m c).2.2.2.2.2))⟩) (run_main m ρ)

end Cert.KernelIdeal.Hand

end
-- ==== Proof.RefValue.lean ====
/-
  The reference computes the specification.

  Entry (r, s) of the reference's first 8192 × 8192 stage chain is the Gaussian kernel entry of X_mean with scale 98:
  the row sums of squares |x_r|² and |x_s|² (each a float sum from the initial value 0), their sum, less 2 times the
  inner product ⟨x_r, x_s⟩ (a product with the transposed array), cut below at 0, negated, divided by 98,
  exponentiated and multiplied by 1. The second chain is the same on X_var with scale 162. The result at (r, c) is
  (Y_mean + Y_var)[r, c] plus the two products Σ_s K[r, s] · V[s, c]. X_mean and X_var enter only as operands.
-/
import Mathlib
import Idealize.ShloMosaic.PureOps.Ideal
import Idealize.ShloMosaic.PureOps.Ideal.Laws
import Idealize.ShloMosaic.Lib.ValueIdx
import proofs.«107588_j19954418057367_2_alg».proof.Proof.Gen.ReferenceIdeal.Read
import proofs.«107588_j19954418057367_2_alg».proof.Proof.Spec
import proofs.«107588_j19954418057367_2_alg».proof.Proof.Consts
import proofs.«107588_j19954418057367_2_alg».proof.Proof.HostArrays

noncomputable section

open scoped BigOperators

namespace Cert.RefSide

open Idealize.ShloMosaic Idealize.ShloMosaic.ValueIdx
open Cert.ReferenceIdeal Cert.ReferenceIdeal.Read

/-- Entry (r, s) of the first kernel matrix: the Gaussian entry of X_mean with scale 98. -/
theorem gauss98_entry (x0 : FVec Ideal S8192x32 .f32) (x2 x3 : FVec Ideal S8192x64 .f32) (r s : Fin 8192) :
    val_main_v27 (F := Ideal) x0 x2 x3 (ix2 r s) = Cert.Spec.gauss 98 (Xm x0 x2 x3) r s := by
  -- the row of the first sum of squares is r, of the second s; the product pairs row r with row s
  have e7 : ∀ k : Fin 96, idx_main_v7 (idx_main_v8 (idx_main_v12 (ix2 r s))) k = ix2 r k := fun k =>
    funext fun a => Fin.ext (by match a with | ⟨0, _⟩ => rfl | ⟨1, _⟩ => rfl)
  have e10 : ∀ k : Fin 96, idx_main_v10 (idx_main_v11 (idx_main_v13 (ix2 r s))) k = ix2 s k := fun k =>
    funext fun a => Fin.ext (by match a with | ⟨0, _⟩ => rfl | ⟨1, _⟩ => rfl)
  have el : ∀ k : Fin 96, lidx_main_v16 (ix2 r s) k = ix2 r k := fun k =>
    funext fun a => Fin.ext (by match a with | ⟨0, _⟩ => rfl | ⟨1, _⟩ => rfl)
  have er : ∀ k : Fin 96, idx_main_v15 (ridx_main_v16 (ix2 r s) k) = ix2 s k := fun k =>
    funext fun a => Fin.ext (by match a with | ⟨0, _⟩ => rfl | ⟨1, _⟩ => rfl)
  rw [val_main_v27_apply, val_main_v26_apply, val_main_cst_5_apply, val_main_v25_apply, val_main_v24_apply,
    val_main_v23_apply, val_main_cst_4_apply, val_main_v22_apply, val_main_v21_apply, val_main_v20_apply,
    val_main_cst_3_apply, val_main_v19_apply, val_main_v18_apply, val_main_v17_apply, val_main_cst_2_apply,
    val_main_v16_apply, val_main_v14_apply, val_main_v13_apply, val_main_v12_apply, val_main_v11_apply,
    val_main_v10_apply, val_main_v8_apply, val_main_v7_apply, val_main_cst_0_apply, val_main_cst_1_apply]
  simp only [val_main_v15_apply, val_main_v6_apply, val_main_v9_apply, e7, e10, el, er,
    Ideal.ofBits_def, Ideal.mulf_def, Ideal.addf_def, Ideal.subf_def, Ideal.maximumf_def, Ideal.hostNegf_def,
    Ideal.negf_def, Ideal.hostDivf_def, Ideal.hostUnary_exp_def,
    ofBits_one, ofBits_98, ofBits_zero, ofBits_two', zero_add]
  rfl

/-- Entry (r, s) of the second kernel matrix: the Gaussian entry of X_var with scale 162. -/
theorem gauss162_entry (x0 : FVec Ideal S8192x32 .f32) (x1 x2 x3 : FVec Ideal S8192x64 .f32) (r s : Fin 8192) :
    val_main_v49 (F := Ideal) x0 x1 x2 x3 (ix2 r s) = Cert.Spec.gauss 162 (Xv x0 x1 x2 x3) r s := by
  -- the row of the first sum of squares is r, of the second s; the product pairs row r with row s
  have e29 : ∀ k : Fin 160, idx_main_v29 (idx_main_v30 (idx_main_v34 (ix2 r s))) k = ix2 r k := fun k =>
    funext fun a => Fin.ext (by match a with | ⟨0, _⟩ => rfl | ⟨1, _⟩ => rfl)
  have e32 : ∀ k : Fin 160, idx_main_v32 (idx_main_v33 (idx_main_v35 (ix2 r s))) k = ix2 s k := fun k =>
    funext fun a => Fin.ext (by match a with | ⟨0, _⟩ => rfl | ⟨1, _⟩ => rfl)
  have el : ∀ k : Fin 160, lidx_main_v38 (ix2 r s) k = ix2 r k := fun k =>
    funext fun a => Fin.ext (by match a with | ⟨0, _⟩ => rfl | ⟨1, _⟩ => rfl)
  have er : ∀ k : Fin 160, idx_main_v37 (ridx_main_v38 (ix2 r s) k) = ix2 s k := fun k =>
    funext fun a => Fin.ext (by match a with | ⟨0, _⟩ => rfl | ⟨1, _⟩ => rfl)
  rw [val_main_v49_apply, val_main_v48_apply, val_main_cst_11_apply, val_main_v47_apply, val_main_v46_apply,
    val_main_v45_apply, val_main_cst_10_apply, val_main_v44_apply, val_main_v43_apply, val_main_v42_apply,
    val_main_cst_9_apply, val_main_v41_apply, val_main_v40_apply, val_main_v39_apply, val_main_cst_8_apply,
    val_main_v38_apply, val_main_v36_apply, val_main_v35_apply, val_main_v34_apply, val_main_v33_apply,
    val_main_v32_apply, val_main_v30_apply, val_main_v29_apply, val_main_cst_6_apply, val_main_cst_7_apply]
  simp only [val_main_v37_apply, val_main_v28_apply, val_main_v31_apply, e29, e32, el, er,
    Ideal.ofBits_def, Ideal.mulf_def, Ideal.addf_def, Ideal.subf_def, Ideal.maximumf_def, Ideal.hostNegf_def,
    Ideal.negf_def, Ideal.hostDivf_def, Ideal.hostUnary_exp_def,
    ofBits_one, ofBits_162, ofBits_zero, ofBits_two', zero_add]
  rfl

/-- **The reference's result is the specification** of X_mean, X_var and the four other inputs: at row r and lane c,
    (Y_mean + Y_var)[r, c] plus the sum over s of the first kernel matrix's entry (r, s) times V_mean[s, c], plus the
    same with the second kernel matrix and V_var. -/
theorem ref_result_eq (x0 : FVec Ideal S8192x32 .f32) (x1 x2 x3 x4 x5 : FVec Ideal S8192x64 .f32) :
    val_main_v54 (F := Ideal) x0 x1 x2 x3 x4 x5 = Cert.Spec.resultArr (Xm x0 x2 x3) (Xv x0 x1 x2 x3) x2 x3 x4 x5 := by
  funext i
  obtain ⟨r, c, rfl⟩ : ∃ (r : Fin 8192) (c : Fin 64), i = ix2 r c := ⟨i 0, i 1, eq_ix2 i⟩
  -- the product's left factor is entry (r, k) of the kernel matrix, its right factor entry (k, c) of V
  have l50 : ∀ k : Fin 8192, lidx_main_v50 (ix2 r c) k = ix2 r k := fun k =>
    funext fun a => Fin.ext (by match a with | ⟨0, _⟩ => rfl | ⟨1, _⟩ => rfl)
  have r50 : ∀ k : Fin 8192, ridx_main_v50 (ix2 r c) k = ix2 k c := fun k =>
    funext fun a => Fin.ext (by match a with | ⟨0, _⟩ => rfl | ⟨1, _⟩ => rfl)
  have l51 : ∀ k : Fin 8192, lidx_main_v51 (ix2 r c) k = ix2 r k := fun k =>
    funext fun a => Fin.ext (by match a with | ⟨0, _⟩ => rfl | ⟨1, _⟩ => rfl)
  have r51 : ∀ k : Fin 8192, ridx_main_v51 (ix2 r c) k = ix2 k c := fun k =>
    funext fun a => Fin.ext (by match a with | ⟨0, _⟩ => rfl | ⟨1, _⟩ => rfl)
  rw [Cert.Spec.resultArr_ix2, val_main_v54_apply, val_main_v53_apply, val_main_v52_apply, val_main_v50_apply,
    val_main_v51_apply]
  simp only [l50, r50, l51, r51, gauss98_entry, gauss162_entry, Ideal.addf_def]
  rfl

end Cert.RefSide

end
-- ==== Proof.lean ====
/-
  A Gaussian-kernel regression step, tiled on the accelerator, against its plain formulation.

  From X_mean = [X_mu, Y_mean + Y_var] and X_var = [X_mu, 0.01·flip(Y_eta), Y_mean + Y_var] both programs compute
      Y_mean + Y_var + K₉₈(X_mean) · V_mean + K₁₆₂(X_var) · V_var,   K_d(X)[r,s] = exp(−max(|x_r|² + |x_s|² − 2⟨x_r,x_s⟩, 0) / d).
  The reference forms the two 8192 × 8192 kernel matrices whole. The kernel walks 8 × 8 tiles of 1024 rows, computes each tile's
  exponent as (−1/d)|x_r|² + (−1/d)|x_s|² − (−2/d)⟨x_r,x_s⟩ clamped above at 0 — the constants −1/98, −1/49, −1/162, −1/81 named,
  so that at the ideal instance they are those rationals —, accumulates the tile products along a row block in a scratch
  buffer and adds Y_mean + Y_var, read back from X_mean's lanes 32 … 95, when it writes the row block out.

  The two exponents agree for real entries (a factor is moved across a sum and a maximum), which the precondition provides;
  the order in which the tiles' contributions are added does not matter on the extended reals. The kernel reads X_mean
  through two windows and X_var through two windows: each array's buffer is split in two halves for the run.

  Modules: the body's three cases and the proof data (BodyIdeal, FrameDataIdeal, FrameRunIdeal, and the same for the
  word-level program), the body's arithmetic at an index (BodyValue), the law between the two arrangements (TileLaw,
  TileJoin), the reference read at an index (RefValue) with the shared host arrays and their finiteness (HostArrays), the
  bookkeeping of the accumulation (AccSum), and the kernel's result array (KernelBlocks, KernelEntry, KernelValue).
-/
import proofs.«107588_j19954418057367_2_alg».proof.Defs
import proofs.«107588_j19954418057367_2_alg».proof.Proof.Gen.Kernel
import proofs.«107588_j19954418057367_2_alg».proof.Proof.Gen.KernelIdeal
import proofs.«107588_j19954418057367_2_alg».proof.Proof.Gen.ReferenceIdeal
import proofs.«107588_j19954418057367_2_alg».proof.Proof.Gen.Pre_finite_inputs
import proofs.«107588_j19954418057367_2_alg».proof.Proof.Gen.ReferenceIdeal.Run
import proofs.«107588_j19954418057367_2_alg».proof.Proof.Gen.ReferenceIdeal.Read
import proofs.«107588_j19954418057367_2_alg».proof.Proof.FrameRunBits
import proofs.«107588_j19954418057367_2_alg».proof.Proof.FrameRunIdeal
import proofs.«107588_j19954418057367_2_alg».proof.Proof.KernelValue
import proofs.«107588_j19954418057367_2_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_p : Cert.frame_Kernel (hKernel := Cert.Kernel.Gen.facts) (hPre_finite_inputs := Cert.Pre_finite_inputs.Gen.facts) :=
  fun m ρ _ => Cert.Kernel.Hand.frame m ρ

/-- So does the idealized program. -/
theorem frame_pi : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Each named constant denotes, at the ideal instance, the rational its name says. -/
theorem preserves : Cert.preserves_Kernel_KernelIdeal :=
  ⟨IdealRules.named_const.statement Cert.KernelIdeal.κ "neg_inv_98" .f32 0xBC272F05#32 ((-1 / 98 : ℝ) : EReal) rfl,
   IdealRules.named_const.statement Cert.KernelIdeal.κ "neg_inv_98" .f32 0xBC272F05#32 ((-1 / 98 : ℝ) : EReal) rfl,
   IdealRules.named_const.statement Cert.KernelIdeal.κ "neg_inv_49" .f32 0xBCA72F05#32 ((-1 / 49 : ℝ) : EReal) rfl,
   IdealRules.named_const.statement Cert.KernelIdeal.κ "neg_inv_162" .f32 0xBBCA4588#32 ((-1 / 162 : ℝ) : EReal) rfl,
   IdealRules.named_const.statement Cert.KernelIdeal.κ "neg_inv_162" .f32 0xBBCA4588#32 ((-1 / 162 : ℝ) : EReal) rfl,
   IdealRules.named_const.statement Cert.KernelIdeal.κ "neg_inv_81" .f32 0xBC4A4588#32 ((-1 / 81 : ℝ) : EReal) rfl⟩

/-- Both programs end with the specification's result of the argument arrays. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  refine ⟨fun c => Cert.KernelIdeal.Hand.G m c, Cert.KernelIdeal.Hand.run_value m ρ hpre, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v54_eq, Cert.RefSide.ref_result_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
